-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1400000x1 : Shape := ⟨2, ![1400000, 1]⟩
abbrev S2x2600000 : Shape := ⟨2, ![2, 2600000]⟩
abbrev S2600000 : Shape := ⟨1, ![2600000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S14x1 : Shape := ⟨2, ![14, 1]⟩
abbrev S1 : Shape := ⟨1, ![1]⟩
abbrev S_ : Shape := ⟨0, ![]⟩

class Facts : Prop where
  bcast_S_S1400000x1 : S_.BroadcastsInDim S1400000x1 (![] : Fin 0 → Fin S1400000x1.rank)
  reducesTo_S1400000x1_S_d0_1 : S1400000x1.ReducesTo [0, 1] S_
  h_S_ : 0 < S_.numel
  bcast_S_S2600000 : S_.BroadcastsInDim S2600000 (![] : Fin 0 → Fin S2600000.rank)
  reducesTo_S2600000_S_d0 : S2600000.ReducesTo [0] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S14x1 : S_.BroadcastsInDim S14x1 (![] : Fin 0 → Fin S14x1.rank)
  reducesTo_S14x1_S_d0_1 : S14x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x32 .f32) (main_arg6 : FVec F S32 .f32) (main_arg7 : FVec F S14x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S14x1 .f32 := Host.absf main_arg7
  let main_cst_10 : FVec F S_ .f32 := constant S_ .f32 0x7F800000#32
  let main_v30 : FVec F S14x1 .f32 := broadcastInDim S14x1 ![] bcast_S_S14x1 main_cst_10
  let main_v31 : IVec S14x1 1 := cmpf .olt main_v29 main_v30
  let main_c_11 : IVec S_ 1 := constantI S_ 1 1#1
  let main_v32 : IVec S_ 1 := (fun x v => Host.reduce IntOp.andi x v reducesTo_S14x1_S_d0_1 h_S_) main_v31 main_c_11
  let main_v33 : IVec S_ 1 := andi main_v28 main_v32
  fn_part2 (F := F) main_arg8 main_v33

def fn {F : FTy → Type} [FloatOps F] (main_arg0 : FVec F S1400000x1 .f32) (main_arg1 : IVec S2x2600000 32) (main_arg2 : FVec F S2600000 .f32) (main_arg3 : FVec F S1x64 .f32) (main_arg4 : FVec F S64 .f32) (main_arg5 : FVec F S64x32 .f32) (main_arg6 : FVec F S32 .f32) (main_arg7 : FVec F S14x1 .f32) (main_arg8 : FVec F S1 .f32) : IVec S_ 1 :=
  let main_v0 : FVec F S1400000x1 .f32 := Host.absf main_arg0
  let main_cst : FVec F S_ .f32 := constant S_ .f32 0x7F800000#32
  let main_v1 : FVec F S1400000x1 .f32 := broadcastInDim S1400000x1 ![] bcast_S_S1400000x1 main_cst
  let main_v2 : IVec S1400000x1 1 := cmpf .olt main_v0 main_v1
  let main_c : IVec S_ 1 := constantI S_ 1 1#1
  let main_v3 : IVec S_ 1 := (fun x v => Host.reduce IntOp.andi x v reducesTo_S1400000x1_S_d0_1 h_S_) main_v2 main_c
  let main_v4 : FVec F S2600000 .f32 := Host.absf main_arg2
  let main_cst_0 : FVec F S_ .f32 := constant S_ .f32 0x7F800000#32
  let main_v5 : FVec F S2600000 .f32 := broadcastInDim S2600000 ![] bcast_S_S2600000 main_cst_0
  let main_v6 : IVec S2600000 1 := cmpf .olt main_v4 main_v5
  let main_c_1 : IVec S_ 1 := constantI S_ 1 1#1
  let main_v7 : IVec S_ 1 := (fun x v => Host.reduce IntOp.andi x v reducesTo_S2600000_S_d0 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S1400000x1 : Shape := ⟨2, ![1400000, 1]⟩
abbrev S2x2600000 : Shape := ⟨2, ![2, 2600000]⟩
abbrev S2600000 : Shape := ⟨1, ![2600000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S14x1 : Shape := ⟨2, ![14, 1]⟩
abbrev S1 : Shape := ⟨1, ![1]⟩
abbrev S1x2600000 : Shape := ⟨2, ![1, 2600000]⟩
abbrev S_ : Shape := ⟨0, ![]⟩
abbrev S2600000x1 : Shape := ⟨2, ![2600000, 1]⟩
abbrev S2600000x2 : Shape := ⟨2, ![2600000, 2]⟩
abbrev S1400000 : Shape := ⟨1, ![1400000]⟩
abbrev S1400000x32 : Shape := ⟨2, ![1400000, 32]⟩
abbrev S10000x1 : Shape := ⟨2, ![10000, 1]⟩
abbrev S10000x32 : Shape := ⟨2, ![10000, 32]⟩
abbrev S10000x64 : Shape := ⟨2, ![10000, 64]⟩
abbrev S2600000x32 : Shape := ⟨2, ![2600000, 32]⟩
abbrev S100000x448 : Shape := ⟨2, ![100000, 448]⟩
abbrev S1x32 : Shape := ⟨2, ![1, 32]⟩
abbrev S14x32 : Shape := ⟨2, ![14, 32]⟩
abbrev S448 : Shape := ⟨1, ![448]⟩
abbrev S1x448 : Shape := ⟨2, ![1, 448]⟩
abbrev S448x1 : Shape := ⟨2, ![448, 1]⟩
abbrev S1x1 : Shape := ⟨2, ![1, 1]⟩
abbrev S100000x1 : Shape := ⟨2, ![100000, 1]⟩
abbrev S4000x448 : Shape := ⟨2, ![4000, 448]⟩
abbrev S4000x1 : Shape := ⟨2, ![4000, 1]⟩

abbrev nBuf : Space → Nat
  | .hbm => 63
  | .vmem => 14
  | .smem => 0
  | _ => 0

abbrev bufTy : (tb : Table) → Fin (tcTables nBuf tb) → BufTy
  | .hbm, ⟨0, _⟩ => ⟨S1400000x1, .f32⟩
  | .hbm, ⟨1, _⟩ => ⟨S2x2600000, .i32⟩
  | .hbm, ⟨2, _⟩ => ⟨S2600000, .f32⟩
  | .hbm, ⟨3, _⟩ => ⟨S1x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S14x1, .f32⟩
  | .hbm, ⟨8, _⟩ => ⟨S1, .f32⟩
  | .hbm, ⟨9, _⟩ => ⟨S1x2600000, .i32⟩
  | .hbm, ⟨10, _⟩ => ⟨S2600000, .i32⟩
  | .hbm, ⟨11, _⟩ => ⟨S1x2600000, .i32⟩
  | .hbm, ⟨12, _⟩ => ⟨S2600000, .i32⟩
  | .hbm, ⟨13, _⟩ => ⟨S_, .i32⟩
  | .hbm, ⟨14, _⟩ => ⟨S2600000, .i32⟩
  | .hbm, ⟨15, _⟩ => ⟨S2600000, .i1⟩
  | .hbm, ⟨16, _⟩ => ⟨S_, .i32⟩
  | .hbm, ⟨17, _⟩ => ⟨S2600000, .i32⟩
  | .hbm, ⟨18, _⟩ => ⟨S2600000, .i32⟩
  | .hbm, ⟨19, _⟩ => ⟨S2600000, .i32⟩
  | .hbm, ⟨20, _⟩ => ⟨S_, .i32⟩
  | .hbm, ⟨21, _⟩ => ⟨S2600000, .i32⟩
  | .hbm, ⟨22, _⟩ => ⟨S2600000, .i32⟩
  | .hbm, ⟨23, _⟩ => ⟨S2600000x1, .i32⟩
  | .hbm, ⟨24, _⟩ => ⟨S2600000x1, .i32⟩
  | .hbm, ⟨25, _⟩ => ⟨S2600000x2, .i32⟩
  | .hbm, ⟨26, _⟩ => ⟨S2600000, .f32⟩
  | .hbm, ⟨27, _⟩ => ⟨S2600000, .f32⟩
  | .hbm, ⟨28, _⟩ => ⟨S_, .f32⟩
  | .hbm, ⟨29, _⟩ => ⟨S1400000, .f32⟩
  | .hbm, ⟨30, _⟩ => ⟨S2600000x1, .i32⟩
  | .hbm, ⟨31, _⟩ => ⟨S1400000, .f32⟩
  | .hbm, ⟨32, _⟩ => ⟨S1400000x1, .f32⟩
  | .hbm, ⟨33, _⟩ => ⟨S1x64, .f32⟩
  | .hbm, ⟨34, _⟩ => ⟨S1400000x32, .f32⟩
  | .hbm, ⟨35, _⟩ => ⟨S_, .i32⟩
  | .hbm, ⟨36, _⟩ => ⟨S2600000, .i32⟩
  | .hbm, ⟨37, _⟩ => ⟨S2600000, .i1⟩
  | .hbm, ⟨38, _⟩ => ⟨S_, .i32⟩
  | .hbm, ⟨39, _⟩ => ⟨S2600000, .i32⟩
  | .hbm, ⟨40, _⟩ => ⟨S2600000, .i32⟩
  | .hbm, ⟨41, _⟩ => ⟨S2600000, .i32⟩
  | .hbm, ⟨42, _⟩ => ⟨S2600000x1, .i32⟩
  | .hbm, ⟨43, _⟩ => ⟨S2600000x32, .f32⟩
  | .hbm, ⟨44, _⟩ => ⟨S2600000x1, .f32⟩
  | .hbm, ⟨45, _⟩ => ⟨S2600000x32, .f32⟩
  | .hbm, ⟨46, _⟩ => ⟨S2600000x32, .f32⟩
  | .hbm, ⟨47, _⟩ => ⟨S_, .f32⟩
  | .hbm, ⟨48, _⟩ => ⟨S1400000x32, .f32⟩
  | .hbm, ⟨49, _⟩ => ⟨S2600000x1, .i32⟩
  | .hbm, ⟨50, _⟩ => ⟨S1400000x32, .f32⟩
  | .hbm, ⟨51, _⟩ => ⟨S100000x448, .f32⟩
  | .hbm, ⟨52, _⟩ => ⟨S1x32, .f32⟩
  | .hbm, ⟨53, _⟩ => ⟨S14x32, .f32⟩
  | .hbm, ⟨54, _⟩ => ⟨S448, .f32⟩
  | .hbm, ⟨55, _⟩ => ⟨S1x448, .f32⟩
  | .hbm, ⟨56, _⟩ => ⟨S_, .f32⟩
  | .hbm, ⟨57, _⟩ => ⟨S14x1, .f32⟩
  | .hbm, ⟨58, _⟩ => ⟨S14x1, .f32⟩
  | .hbm, ⟨59, _⟩ => ⟨S14x32, .f32⟩
  | .hbm, ⟨60, _⟩ => ⟨S448x1, .f32⟩
  | .hbm, ⟨61, _⟩ => ⟨S1x1, .f32⟩
  | .hbm, ⟨62, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S1x64, .f32⟩
  | .local _ .vmem, ⟨4, _⟩ => ⟨S64x32, .f32⟩
  | .local _ .vmem, ⟨5, _⟩ => ⟨S10000x32, .f32⟩
  | .local _ .vmem, ⟨6, _⟩ => ⟨S10000x32, .f32⟩
  | .local _ .vmem, ⟨7, _⟩ => ⟨S4000x448, .f32⟩
  | .local _ .vmem, ⟨8, _⟩ => ⟨S4000x448, .f32⟩
  | .local _ .vmem, ⟨9, _⟩ => ⟨S1x448, .f32⟩
  | .local _ .vmem, ⟨10, _⟩ => ⟨S448x1, .f32⟩
  | .local _ .vmem, ⟨11, _⟩ => ⟨S1x1, .f32⟩
  | .local _ .vmem, ⟨12, _⟩ => ⟨S4000x1, .f32⟩
  | .local _ .vmem, ⟨13, _⟩ => ⟨S4000x1, .f32⟩
  | _, _ => ⟨S1400000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![140], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x448 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x448 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S448x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x2600000_S1x2600000_0_0 : S2x2600000.Slices ![0, 0] S1x2600000
  shapeCasts_S1x2600000_S2600000 : S1x2600000.ShapeCasts S2600000
  slices_S2x2600000_S1x2600000_1_0 : S2x2600000.Slices ![1, 0] S1x2600000
  bcast_S_S2600000 : S_.BroadcastsInDim S2600000 (![] : Fin 0 → Fin S2600000.rank)
  bcast_S2600000_S2600000x1_0 : S2600000.BroadcastsInDim S2600000x1 (![0] : Fin 1 → Fin S2600000x1.rank)
  concatenates_S2600000x1_S2600000x1_S2600000x2_d1 : Shape.Concatenates [S2600000x1, S2600000x1] S2600000x2 1
  bcast_S_S1400000 : S_.BroadcastsInDim S1400000 (![] : Fin 0 → Fin S1400000.rank)
  bcast_S1400000_S1400000x1_0 : S1400000.BroadcastsInDim S1400000x1 (![0] : Fin 1 → Fin S1400000x1.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  broadcasts_S10000x1_S10000x64 : S10000x1.Broadcasts S10000x64
  broadcasts_S1x64_S10000x64 : S1x64.Broadcasts S10000x64
  shapeCasts_S1x64_S1x64 : S1x64.ShapeCasts S1x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S2600000x1_S2600000x32_0_1 : S2600000x1.BroadcastsInDim S2600000x32 (![0, 1] : Fin 2 → Fin S2600000x32.rank)
  bcast_S_S1400000x32 : S_.BroadcastsInDim S1400000x32 (![] : Fin 0 → Fin S1400000x32.rank)
  shapeCasts_S1400000x32_S100000x448 : S1400000x32.ShapeCasts S100000x448
  shapeCasts_S32_S1x32 : S32.ShapeCasts S1x32
  bcast_S1x32_S14x32_0_1 : S1x32.BroadcastsInDim S14x32 (![0, 1] : Fin 2 → Fin S14x32.rank)
  shapeCasts_S14x32_S448 : S14x32.ShapeCasts S448
  shapeCasts_S448_S1x448 : S448.ShapeCasts S1x448
  bcast_S_S14x1 : S_.BroadcastsInDim S14x1 (![] : Fin 0 → Fin S14x1.rank)
  bcast_S14x1_S14x32_0_1 : S14x1.BroadcastsInDim S14x32 (![0, 1] : Fin 2 → Fin S14x32.rank)
  shapeCasts_S14x32_S448x1 : S14x32.ShapeCasts S448x1
  shapeCasts_S1_S1x1 : S1.ShapeCasts S1x1
  inb_S4000x448_S4000x448_0_0 : ∀ a, (![0, 0] : Fin 2 → Nat) a + S4000x448.size a ≤ S4000x448.size a
  h_S4000x448 : 0 < S4000x448.numel
  shapeCasts_S4000x448_S4000x448 : S4000x448.ShapeCasts S4000x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S4000x448 : S1x448.Broadcasts S4000x448
  inb_S448x1_S448x1_0_0 : ∀ a, (![0, 0] : Fin 2 → Nat) a + S448x1.size a ≤ S448x1.size a
  h_S448x1 : 0 < S448x1.numel
  shapeCasts_S448x1_S448x1 : S448x1.ShapeCasts S448x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S1400000x1_S2600000x2_S2600000_n_01_n_n_01_1_11_wf : GatherDims.WF S1400000x1 S2600000x2 S2600000 [] [0, 1] [] [0, 1] [] 1 ![1, 1]
  scatter_S1400000_S2600000x1_S2600000_n_0_0_1_wf : ScatterDims.WF S1400000 S2600000x1 S2600000 [] [0] [0] 1
  dot_S10000x64_S64x32_S10000x32_1_0_0_1_n_n_wf : DotDims.WF S10000x64 S64x32 S10000x32 [1] [0] [0] [1] [] []
  gather_S1400000x32_S2600000x1_S2600000x32_1_0_n_n_0_1_132_wf : GatherDims.WF S1400000x32 S2600000x1 S2600000x32 [1] [0] [] [0] [] 1 ![1, 32]
  scatter_S1400000x32_S2600000x1_S2600000x32_1_0_0_1_wf : ScatterDims.WF S1400000x32 S2600000x1 S2600000x32 [1] [0] [0] 1
  dot_S4000x448_S448x1_S4000x1_1_0_0_1_n_n_wf : DotDims.WF S4000x448 S448x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S1400000x1.size a
  hwx0_0 : ∀ i : grid0.Coords, EltTy.bits .f32 = 32 ∨ (Rect.block (s := S1400000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x32.size a ≤ S1400000x32.size a
  hwx0_4 : ∀ i : grid0.Coords, EltTy.bits .f32 = 32 ∨ (Rect.block (s := S1400000x32) S10000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x448.size a ≤ S100000x448.size a
  hwx1_0 : ∀ i : grid1.Coords, EltTy.bits .f32 = 32 ∨ (Rect.block (s := S100000x448) S4000x448.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x448.size a ≤ S1x448.size a
  hwx1_1 : ∀ i : grid1.Coords, EltTy.bits .f32 = 32 ∨ (Rect.block (s := S1x448) S1x448.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S448x1.size a ≤ S448x1.size a
  hwx1_2 : ∀ i : grid1.Coords, EltTy.bits .f32 = 32 ∨ (Rect.block (s := S448x1) S448x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)

variable [Facts₀]

def gather_S1400000x1_S2600000x2_S2600000_n_01_n_n_01_1_11 : GatherDims S1400000x1 S2600000x2 S2600000 where
  offsetDims := []
  collapsedSliceDims := [0, 1]
  operandBatchingDims := []
  startIndicesBatchingDims := []
  startIndexMap := [0, 1]
  indexVectorDim := 1
  sliceSizes := ![1, 1]
  wf := gather_S1400000x1_S2600000x2_S2600000_n_01_n_n_01_1_11_wf
def scatter_S1400000_S2600000x1_S2600000_n_0_0_1 : ScatterDims S1400000 S2600000x1 S2600000 where
  updateWindowDims := []
  insertedWindowDims := [0]
  scatterDimsToOperandDims := [0]
  indexVectorDim := 1
  wf := scatter_S1400000_S2600000x1_S2600000_n_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S1400000x32_S2600000x1_S2600000x32_1_0_n_n_0_1_132 : GatherDims S1400000x32 S2600000x1 S2600000x32 where
  offsetDims := [1]
  collapsedSliceDims := [0]
  operandBatchingDims := []
  startIndicesBatchingDims := []
  startIndexMap := [0]
  indexVectorDim := 1
  sliceSizes := ![1, 32]
  wf := gather_S1400000x32_S2600000x1_S2600000x32_1_0_n_n_0_1_132_wf
def scatter_S1400000x32_S2600000x1_S2600000x32_1_0_0_1 : ScatterDims S1400000x32 S2600000x1 S2600000x32 where
  updateWindowDims := [1]
  insertedWindowDims := [0]
  scatterDimsToOperandDims := [0]
  indexVectorDim := 1
  wf := scatter_S1400000x32_S2600000x1_S2600000x32_1_0_0_1_wf
def dot_S4000x448_S448x1_S4000x1_1_0_0_1_n_n : DotDims S4000x448 S448x1 S4000x1 where
  lhsContracting := [1]
  rhsContracting := [0]
  lhsNonContracting := [0]
  rhsNonContracting := [1]
  lhsBatch := []
  rhsBatch := []
  wf := dot_S4000x448_S448x1_S4000x1_1_0_0_1_n_n_wf

abbrev win0_0 : Pipeline.Window sig grid0 :=
  Pipeline.Window.ofSpec (Memref.whole main_v19) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S10000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35) S4000x448.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x448.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S448x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S4000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1400000x1 : Shape := ⟨2, ![1400000, 1]⟩
abbrev S2x2600000 : Shape := ⟨2, ![2, 2600000]⟩
abbrev S2600000 : Shape := ⟨1, ![2600000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S14x1 : Shape := ⟨2, ![14, 1]⟩
abbrev S1 : Shape := ⟨1, ![1]⟩
abbrev S1x2600000 : Shape := ⟨2, ![1, 2600000]⟩
abbrev S1400000x64 : Shape := ⟨2, ![1400000, 64]⟩
abbrev S_ : Shape := ⟨0, ![]⟩
abbrev S2600000x1 : Shape := ⟨2, ![2600000, 1]⟩
abbrev S2600000x64 : Shape := ⟨2, ![2600000, 64]⟩
abbrev S1400000x32 : Shape := ⟨2, ![1400000, 32]⟩
abbrev S2600000x32 : Shape := ⟨2, ![2600000, 32]⟩
abbrev S1x32 : Shape := ⟨2, ![1, 32]⟩
abbrev S100000x14x32 : Shape := ⟨3, ![100000, 14, 32]⟩
abbrev S100000x14 : Shape := ⟨2, ![100000, 14]⟩
abbrev S100000x1 : Shape := ⟨2, ![100000, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S1400000x1, .f32⟩
  | .hbm, ⟨1, _⟩ => ⟨S2x2600000, .i32⟩
  | .hbm, ⟨2, _⟩ => ⟨S2600000, .f32⟩
  | .hbm, ⟨3, _⟩ => ⟨S1x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S14x1, .f32⟩
  | .hbm, ⟨8, _⟩ => ⟨S1, .f32⟩
  | .hbm, ⟨9, _⟩ => ⟨S1x2600000, .i32⟩
  | .hbm, ⟨10, _⟩ => ⟨S2600000, .i32⟩
  | .hbm, ⟨11, _⟩ => ⟨S1x2600000, .i32⟩
  | .hbm, ⟨12, _⟩ => ⟨S2600000, .i32⟩
  | .hbm, ⟨13, _⟩ => ⟨S1400000x64, .f32⟩
  | .hbm, ⟨14, _⟩ => ⟨S_, .i32⟩
  | .hbm, ⟨15, _⟩ => ⟨S2600000, .i32⟩
  | .hbm, ⟨16, _⟩ => ⟨S2600000, .i1⟩
  | .hbm, ⟨17, _⟩ => ⟨S_, .i32⟩
  | .hbm, ⟨18, _⟩ => ⟨S2600000, .i32⟩
  | .hbm, ⟨19, _⟩ => ⟨S2600000, .i32⟩
  | .hbm, ⟨20, _⟩ => ⟨S2600000, .i32⟩
  | .hbm, ⟨21, _⟩ => ⟨S2600000x1, .i32⟩
  | .hbm, ⟨22, _⟩ => ⟨S2600000x64, .f32⟩
  | .hbm, ⟨23, _⟩ => ⟨S2600000x1, .f32⟩
  | .hbm, ⟨24, _⟩ => ⟨S2600000x64, .f32⟩
  | .hbm, ⟨25, _⟩ => ⟨S2600000x64, .f32⟩
  | .hbm, ⟨26, _⟩ => ⟨S_, .f32⟩
  | .hbm, ⟨27, _⟩ => ⟨S1400000x64, .f32⟩
  | .hbm, ⟨28, _⟩ => ⟨S2600000x1, .i32⟩
  | .hbm, ⟨29, _⟩ => ⟨S1400000x64, .f32⟩
  | .hbm, ⟨30, _⟩ => ⟨S1x64, .f32⟩
  | .hbm, ⟨31, _⟩ => ⟨S1400000x64, .f32⟩
  | .hbm, ⟨32, _⟩ => ⟨S1400000x64, .f32⟩
  | .hbm, ⟨33, _⟩ => ⟨S_, .f32⟩
  | .hbm, ⟨34, _⟩ => ⟨S1400000x64, .f32⟩
  | .hbm, ⟨35, _⟩ => ⟨S1400000x64, .f32⟩
  | .hbm, ⟨36, _⟩ => ⟨S1400000x32, .f32⟩
  | .hbm, ⟨37, _⟩ => ⟨S_, .i32⟩
  | .hbm, ⟨38, _⟩ => ⟨S2600000, .i32⟩
  | .hbm, ⟨39, _⟩ => ⟨S2600000, .i1⟩
  | .hbm, ⟨40, _⟩ => ⟨S_, .i32⟩
  | .hbm, ⟨41, _⟩ => ⟨S2600000, .i32⟩
  | .hbm, ⟨42, _⟩ => ⟨S2600000, .i32⟩
  | .hbm, ⟨43, _⟩ => ⟨S2600000, .i32⟩
  | .hbm, ⟨44, _⟩ => ⟨S2600000x1, .i32⟩
  | .hbm, ⟨45, _⟩ => ⟨S2600000x32, .f32⟩
  | .hbm, ⟨46, _⟩ => ⟨S2600000x1, .f32⟩
  | .hbm, ⟨47, _⟩ => ⟨S2600000x32, .f32⟩
  | .hbm, ⟨48, _⟩ => ⟨S2600000x32, .f32⟩
  | .hbm, ⟨49, _⟩ => ⟨S_, .f32⟩
  | .hbm, ⟨50, _⟩ => ⟨S1400000x32, .f32⟩
  | .hbm, ⟨51, _⟩ => ⟨S2600000x1, .i32⟩
  | .hbm, ⟨52, _⟩ => ⟨S1400000x32, .f32⟩
  | .hbm, ⟨53, _⟩ => ⟨S1x32, .f32⟩
  | .hbm, ⟨54, _⟩ => ⟨S1400000x32, .f32⟩
  | .hbm, ⟨55, _⟩ => ⟨S1400000x32, .f32⟩
  | .hbm, ⟨56, _⟩ => ⟨S_, .f32⟩
  | .hbm, ⟨57, _⟩ => ⟨S1400000x32, .f32⟩
  | .hbm, ⟨58, _⟩ => ⟨S1400000x32, .f32⟩
  | .hbm, ⟨59, _⟩ => ⟨S100000x14x32, .f32⟩
  | .hbm, ⟨60, _⟩ => ⟨S_, .f32⟩
  | .hbm, ⟨61, _⟩ => ⟨S100000x14, .f32⟩
  | .hbm, ⟨62, _⟩ => ⟨S_, .f32⟩
  | .hbm, ⟨63, _⟩ => ⟨S100000x14, .f32⟩
  | .hbm, ⟨64, _⟩ => ⟨S100000x14, .f32⟩
  | .hbm, ⟨65, _⟩ => ⟨S100000x1, .f32⟩
  | .hbm, ⟨66, _⟩ => ⟨S1x1, .f32⟩
  | .hbm, ⟨67, _⟩ => ⟨S100000x1, .f32⟩
  | .hbm, ⟨68, _⟩ => ⟨S100000x1, .f32⟩
  | .hbm, ⟨69, _⟩ => ⟨S100000x1, .f32⟩
  | .hbm, ⟨70, _⟩ => ⟨S100000x1, .f32⟩
  | .hbm, ⟨71, _⟩ => ⟨S_, .f32⟩
  | .hbm, ⟨72, _⟩ => ⟨S100000x1, .f32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .f32⟩
  | _, _ => ⟨S1400000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call1_cst : Ref sig .tc := ⟨.hbm, 56, rfl⟩
abbrev main_call1_v0 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  slices_S2x2600000_S1x2600000_0_0 : S2x2600000.Slices ![0, 0] S1x2600000
  shapeCasts_S1x2600000_S2600000 : S1x2600000.ShapeCasts S2600000
  slices_S2x2600000_S1x2600000_1_0 : S2x2600000.Slices ![1, 0] S1x2600000
  bcast_S_S2600000 : S_.BroadcastsInDim S2600000 (![] : Fin 0 → Fin S2600000.rank)
  bcast_S2600000_S2600000x1_0 : S2600000.BroadcastsInDim S2600000x1 (![0] : Fin 1 → Fin S2600000x1.rank)
  bcast_S2600000x1_S2600000x64_0_1 : S2600000x1.BroadcastsInDim S2600000x64 (![0, 1] : Fin 2 → Fin S2600000x64.rank)
  bcast_S_S1400000x64 : S_.BroadcastsInDim S1400000x64 (![] : Fin 0 → Fin S1400000x64.rank)
  bcast_S64_S1x64_1 : S64.BroadcastsInDim S1x64 (![1] : Fin 1 → Fin S1x64.rank)
  bcast_S1x64_S1400000x64_0_1 : S1x64.BroadcastsInDim S1400000x64 (![0, 1] : Fin 2 → Fin S1400000x64.rank)
  bcast_S2600000x1_S2600000x32_0_1 : S2600000x1.BroadcastsInDim S2600000x32 (![0, 1] : Fin 2 → Fin S2600000x32.rank)
  bcast_S_S1400000x32 : S_.BroadcastsInDim S1400000x32 (![] : Fin 0 → Fin S1400000x32.rank)
  bcast_S32_S1x32_1 : S32.BroadcastsInDim S1x32 (![1] : Fin 1 → Fin S1x32.rank)
  bcast_S1x32_S1400000x32_0_1 : S1x32.BroadcastsInDim S1400000x32 (![0, 1] : Fin 2 → Fin S1400000x32.rank)
  shapeCasts_S1400000x32_S100000x14x32 : S1400000x32.ShapeCasts S100000x14x32
  reducesTo_S100000x14x32_S100000x14_d2 : S100000x14x32.ReducesTo [2] S100000x14
  h_S_ : 0 < S_.numel
  bcast_S_S100000x14 : S_.BroadcastsInDim S100000x14 (![] : Fin 0 → Fin S100000x14.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S1400000x1_S1x64_S1400000x64_1_0_0_1_n_n_wf : DotDims.WF S1400000x1 S1x64 S1400000x64 [1] [0] [0] [1] [] []
  gather_S1400000x64_S2600000x1_S2600000x64_1_0_n_n_0_1_164_wf : GatherDims.WF S1400000x64 S2600000x1 S2600000x64 [1] [0] [] [0] [] 1 ![1, 64]
  scatter_S1400000x64_S2600000x1_S2600000x64_1_0_0_1_wf : ScatterDims.WF S1400000x64 S2600000x1 S2600000x64 [1] [0] [0] 1
  dot_S1400000x64_S64x32_S1400000x32_1_0_0_1_n_n_wf : DotDims.WF S1400000x64 S64x32 S1400000x32 [1] [0] [0] [1] [] []
  gather_S1400000x32_S2600000x1_S2600000x32_1_0_n_n_0_1_132_wf : GatherDims.WF S1400000x32 S2600000x1 S2600000x32 [1] [0] [] [0] [] 1 ![1, 32]
  scatter_S1400000x32_S2600000x1_S2600000x32_1_0_0_1_wf : ScatterDims.WF S1400000x32 S2600000x1 S2600000x32 [1] [0] [0] 1
  dot_S100000x14_S14x1_S100000x1_1_0_0_1_n_n_wf : DotDims.WF S100000x14 S14x1 S100000x1 [1] [0] [0] [1] [] []

variable [Facts₀]

def dot_S1400000x1_S1x64_S1400000x64_1_0_0_1_n_n : DotDims S1400000x1 S1x64 S1400000x64 where
  lhsContracting := [1]
  rhsContracting := [0]
  lhsNonContracting := [0]
  rhsNonContracting := [1]
  lhsBatch := []
  rhsBatch := []
  wf := dot_S1400000x1_S1x64_S1400000x64_1_0_0_1_n_n_wf
def gather_S1400000x64_S2600000x1_S2600000x64_1_0_n_n_0_1_164 : GatherDims S1400000x64 S2600000x1 S2600000x64 where
  offsetDims := [1]
  collapsedSliceDims := [0]
  operandBatchingDims := []
  startIndicesBatchingDims := []
  startIndexMap := [0]
  indexVectorDim := 1
  sliceSizes := ![1, 64]
  wf := gather_S1400000x64_S2600000x1_S2600000x64_1_0_n_n_0_1_164_wf
def scatter_S1400000x64_S2600000x1_S2600000x64_1_0_0_1 : ScatterDims S1400000x64 S2600000x1 S2600000x64 where
  updateWindowDims := [1]
  insertedWindowDims := [0]
  scatterDimsToOperandDims := [0]
  indexVectorDim := 1
  wf := scatter_S1400000x64_S2600000x1_S2600000x64_1_0_0_1_wf
def dot_S1400000x64_S64x32_S1400000x32_1_0_0_1_n_n : DotDims S1400000x64 S64x32 S1400000x32 where
  lhsContracting := [1]
  rhsContracting := [0]
  lhsNonContracting := [0]
  rhsNonContracting := [1]
  lhsBatch := []
  rhsBatch := []
  wf := dot_S1400000x64_S64x32_S1400000x32_1_0_0_1_n_n_wf
def gather_S1400000x32_S2600000x1_S2600000x32_1_0_n_n_0_1_132 : GatherDims S1400000x32 S2600000x1 S2600000x32 where
  offsetDims := [1]
  collapsedSliceDims := [0]
  operandBatchingDims := []
  startIndicesBatchingDims := []
  startIndexMap := [0]
  indexVectorDim := 1
  sliceSizes := ![1, 32]
  wf := gather_S1400000x32_S2600000x1_S2600000x32_1_0_n_n_0_1_132_wf
def scatter_S1400000x32_S2600000x1_S2600000x32_1_0_0_1 : ScatterDims S1400000x32 S2600000x1 S2600000x32 where
  updateWindowDims := [1]
  insertedWindowDims := [0]
  scatterDimsToOperandDims := [0]
  indexVectorDim := 1
  wf := scatter_S1400000x32_S2600000x1_S2600000x32_1_0_0_1_wf
def dot_S100000x14_S14x1_S100000x1_1_0_0_1_n_n : DotDims S100000x14 S14x1 S100000x1 where
  lhsContracting := [1]
  rhsContracting := [0]
  lhsNonContracting := [0]
  rhsNonContracting := [1]
  lhsBatch := []
  rhsBatch := []
  wf := dot_S100000x14_S14x1_S100000x1_1_0_0_1_n_n_wf

class Facts : Prop extends Facts₀ where

variable [Facts]
-- ==== Proof.WholeRun.lean ====
/-
  The idealized kernel program's run, with the result named.

  @main is a stretch of host operations, the first pallas_call, a second stretch, and the second pallas_call. Every
  weakly fair execution terminates without a fault; in the final state the result buffer holds what the last boundary's
  contents say (the second call's output array after its write-backs), and the nine argument arrays are as launched.
  The boundaries' contents are the fold through @main that the frame certificate builds; this restates its run with
  the result buffer added to the conclusion.
-/
import proofs.«101361_j20091857011301_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.WholeRun

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.ProjectedHidden.lean ====
/-
  The first pallas_call, read as one function of the arrays it finds.

  Its grid has 140 points; point t works on rows 10000 t … 10000 t + 9999 of the node axis. From the per-node scalar
  s (a column), the first layer's weights W1 and bias b1 (rows of 64 channels) and the second layer's weights W2
  (64 x 32) the body forms the hidden features max(s_n * W1_c + b1_c, 0) and projects them:
      out (n, k) = sum over c < 64 of max(s_n * W1_c + b1_c, 0) * W2 (c, k).
  Every point writes its 10000 x 32 block back, the blocks tile the 1400000 x 32 result, so the result array ends
  holding that function of the four input arrays.
-/
import proofs.«101361_j20091857011301_2_alg».proof.Proof.Gen.KernelIdeal.Frame
import proofs.«101361_j20091857011301_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ProjectedHidden

open Idealize.ShloMosaic Idealize.ShloMosaic.ValueIdx Idealize.ShloMosaic.TcCoe Idealize.SL.Sem
open Cert.KernelIdeal Cert.KernelIdeal.Gen
open Idealize.ShloMosaic.Pipeline (Dat)

/-- One channel's term: the rectified hidden feature times the projection weight, the four arrays read where told. -/
def cell {S0 S1 S2 S3 : Shape} (s : S0.Idx → EReal) (w1 : S1.Idx → EReal) (b1 : S2.Idx → EReal) (w2 : S3.Idx → EReal)
    (i0 : S0.Idx) (i1 : S1.Idx) (i2 : S2.Idx) (i3 : S3.Idx) : EReal :=
  max (s i0 * w1 i1 + b1 i2) (Ideal.ofBits .f32 0x00000000#32) * w2 i3

/-- The hidden features of node `n`, projected to output channel `k`. -/
def proj (s : S1400000x1.Idx → EReal) (w1 b1 : S1x64.Idx → EReal) (w2 : S64x32.Idx → EReal) : S1400000x32.Idx → EReal :=
  fun i => ∑ c : Fin 64, cell s w1 b1 w2 (ix2 (i 0) (0 : Fin 1)) (ix2 (0 : Fin 1) c) (ix2 (0 : Fin 1) c) (ix2 c (i 1))

/-! ## The body's product at an entry -/

theorem lhs_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The column broadcast along the channels, read at (r, c): the column at row r. -/
theorem bcast_col (v : S10000x1.Idx → EReal) (r : Fin 10000) (c : Fin 64) :
    broadcastTo S10000x64 v broadcasts_S10000x1_S10000x64 (ix2 r c) = v (ix2 r (0 : Fin 1)) :=
  broadcastTo_apply v broadcasts_S10000x1_S10000x64 (ix2 r c) (ix2 r (0 : Fin 1)) (fun a => by
    match a with
    | ⟨0, _⟩ => rfl
    | ⟨1, _⟩ => rfl)

/-- The row broadcast along the nodes, read at (r, c): the row at channel c. -/
theorem bcast_row (v : S1x64.Idx → EReal) (r : Fin 10000) (c : Fin 64) :
    broadcastTo S10000x64 v broadcasts_S1x64_S10000x64 (ix2 r c) = v (ix2 (0 : Fin 1) c) :=
  broadcastTo_apply v broadcasts_S1x64_S10000x64 (ix2 r c) (ix2 (0 : Fin 1) c) (fun a => by
    match a with
    | ⟨0, _⟩ => rfl
    | ⟨1, _⟩ => rfl)

/-- The body's stored value at row r of the block, channel k, from the four loaded blocks. -/
theorem pay_apply (x0 : Vec Ideal S10000x1 .f32) (x1 x2 : Vec Ideal S1x64 .f32) (x3 : Vec Ideal S64x32 .f32)
    (r : Fin 10000) (k : Fin 32) :
    k0_pay1 (F := Ideal) x0 x1 x2 x3 (ix2 r k)
      = ∑ c : Fin 64, cell x0 x1 x2 x3 (ix2 r (0 : Fin 1)) (ix2 (0 : Fin 1) c) (ix2 (0 : Fin 1) c) (ix2 c k) := by
  unfold k0_pay1
  refine (Cert.LibPlainDot.matmul_zero_apply dot_S10000x64_S64x32_S10000x32_1_0_0_1_n_n none 64 rfl rfl _ _ (ix2 r k)
    (fun c => ix2 r c) (fun c => ix2 c k) (fun q => ?_) (fun q => ?_)).trans ?_
  · exact Cert.LibPlainDot.ext2 _ _ (lhs_0 _ q) (lhs_1 _ q)
  · exact Cert.LibPlainDot.ext2 _ _ (rhs_0 _ q) (rhs_1 _ q)
  · refine Finset.sum_congr rfl fun c _ => ?_
    show max (broadcastTo S10000x64 (shapeCast S10000x1 x0 shapeCasts_S10000x1_S10000x1) broadcasts_S10000x1_S10000x64 (ix2 r c)
        * broadcastTo S10000x64 x1 broadcasts_S1x64_S10000x64 (ix2 r c)
        + broadcastTo S10000x64 (shapeCast S1x64 x2 shapeCasts_S1x64_S1x64) broadcasts_S1x64_S10000x64 (ix2 r c))
        (Ideal.ofBits .f32 0x00000000#32) * x3 (ix2 c k) = _
    rw [shapeCast_self, shapeCast_self, bcast_col, bcast_row, bcast_row]
    rfl

/-! ## From blocks to the array -/

theorem hz : (![0, 0] : Fin 2 → Nat) = fun _ => 0 := funext fun a => by fin_cases a <;> rfl

/-- The printed index maps over the grid: the node-axis windows sit at block t, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

set_option maxHeartbeats 2000000 in
/-- WHAT POINT t WRITES BACK is block t of `proj` of the four arrays as the region finds them. -/
theorem flushed_eq (c : Dev nD) (t : Fin cfg0.N) :
    (dat0 (F := Ideal) V c).flushed 4 t
      = ((cfg0.win 4).blk t).view.read (Elt Ideal) (proj (V c main_v19) (V c main_arg3) (V c main_v20) (V c main_arg5)) := by
  show (cfg0.win 4).cut (grid0.coords t) ((dat0 V c).after 4 t) = _
  rw [after0_4]
  unfold out0_4
  rw [View.canon_unit_zero hz]
  simp only [View.ld_unit_zero (S := S10000x1) hz, View.ld_unit_zero (S := S1x64) hz, View.ld_unit_zero (S := S64x32) hz]
  obtain ⟨e00, e01, e10, e11, e20, e21, e30, e31, e40, e41⟩ := idx_facts t
  funext j
  obtain ⟨r, k, rfl⟩ : ∃ (r : Fin 10000) (k : Fin 32), j = ix2 r k := ⟨j 0, j 1, eq_ix2 j⟩
  refine (pay_apply (iblk0 V c 0 t) (iblk0 V c 1 t) (iblk0 V c 2 t) (iblk0 V c 3 t) r k).trans ?_
  show ∑ cc : Fin 64, cell (S0 := S1400000x1) (S1 := S1x64) (S2 := S1x64) (S3 := S64x32) (V c main_v19) (V c main_arg3) (V c main_v20) (V c main_arg5)
        (((cfg0.win 0).blk t).view.emb (ix2 r (0 : Fin 1))) (((cfg0.win 1).blk t).view.emb (ix2 (0 : Fin 1) cc))
        (((cfg0.win 2).blk t).view.emb (ix2 (0 : Fin 1) cc)) (((cfg0.win 3).blk t).view.emb (ix2 cc k))
      = proj (V c main_v19) (V c main_arg3) (V c main_v20) (V c main_arg5) (((cfg0.win 4).blk t).view.emb (ix2 r k))
  unfold proj
  refine Finset.sum_congr rfl fun cc _ => ?_
  have h0 : ((cfg0.win 0).blk t).view.emb (ix2 r (0 : Fin 1))
      = ix2 ((((cfg0.win 4).blk t).view.emb (ix2 r k)) 0) (0 : Fin 1) := by
    funext a; apply Fin.ext
    match a with
    | ⟨0, _⟩ => show win0_0.index t (0 : Fin 2) * 10000 + 1 * r.val = win0_4.index t (0 : Fin 2) * 10000 + 1 * r.val; omega
    | ⟨1, _⟩ => show win0_0.index t (1 : Fin 2) * 1 + 1 * 0 = 0; omega
  have h1 : ((cfg0.win 1).blk t).view.emb (ix2 (0 : Fin 1) cc) = ix2 (0 : Fin 1) cc := by
    funext a; apply Fin.ext
    match a with
    | ⟨0, _⟩ => show win0_1.index t (0 : Fin 2) * 1 + 1 * 0 = 0; omega
    | ⟨1, _⟩ => show win0_1.index t (1 : Fin 2) * 64 + 1 * cc.val = cc.val; omega
  have h2 : ((cfg0.win 2).blk t).view.emb (ix2 (0 : Fin 1) cc) = ix2 (0 : Fin 1) cc := by
    funext a; apply Fin.ext
    match a with
    | ⟨0, _⟩ => show win0_2.index t (0 : Fin 2) * 1 + 1 * 0 = 0; omega
    | ⟨1, _⟩ => show win0_2.index t (1 : Fin 2) * 64 + 1 * cc.val = cc.val; omega
  have h3 : ((cfg0.win 3).blk t).view.emb (ix2 cc k)
      = ix2 cc ((((cfg0.win 4).blk t).view.emb (ix2 r k)) 1) := by
    funext a; apply Fin.ext
    match a with
    | ⟨0, _⟩ => show win0_3.index t (0 : Fin 2) * 64 + 1 * cc.val = cc.val; omega
    | ⟨1, _⟩ => show win0_3.index t (1 : Fin 2) * 32 + 1 * k.val = win0_4.index t (1 : Fin 2) * 32 + 1 * k.val; omega
  rw [h0, h1, h2, h3]
  rfl

/-- An index of the result array is in point t's block iff each coordinate is in the block's range. -/
theorem mem_blk (t : Fin cfg0.N) (i : S1400000x32.Idx) :
    i ∈ ((cfg0.win 4).blk t).view.set ↔ ∀ a : Fin 2, win0_4.index t a * S10000x32.size a ≤ (i a).val ∧ (i a).val < win0_4.index t a * S10000x32.size a + S10000x32.size a := by
  show i ∈ ((View.whole main_v21).slice (win0_4.rect t)).set ↔ _
  rw [View.set_slice_whole, Rect.mem_set_unit]
  exact Iff.rfl

/-- Row n is in the block of point n / 10000. -/
theorem cover (i : S1400000x32.Idx) :
    ∃ t : Fin cfg0.N, (cfg0.win 4).flush t = true ∧ i ∈ ((cfg0.win 4).blk t).view.set := by
  have hi0 : (i 0).val < 1400000 := (i 0).isLt
  have hi1 : (i 1).val < 32 := (i 1).isLt
  have hN : cfg0.N = 140 := N_0
  let t : Fin cfg0.N := ⟨(i 0).val / 10000, by rw [hN]; omega⟩
  obtain ⟨e00, e01, e10, e11, e20, e21, e30, e31, e40, e41⟩ := idx_facts t
  refine ⟨t, flush0_4 t, ?_⟩
  rw [mem_blk]
  intro a
  have ht : t.val = (i 0).val / 10000 := rfl
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 32 ≤ (i 1).val ∧ (i 1).val < win0_4.index t (1 : Fin 2) * 32 + 32; omega

/-- THE RESULT ARRAY after the region: `proj` of the four arrays the region found. -/
theorem final (c : Dev nD) :
    (dat0 (F := Ideal) V c).arrAt 4 cfg0.N = proj (V c main_v19) (V c main_arg3) (V c main_v20) (V c main_arg5) :=
  (dat0 (F := Ideal) V c).arrAt_eq_of_cover 4 _ (fun t _ => flushed_eq V c t) cover

end Cert.KernelIdeal.ProjectedHidden

end
-- ==== Proof.PooledHead.lean ====
/-
  The second pallas_call, read as one function of the arrays it finds.

  Its grid has 25 points; point t works on graphs 4000 t … 4000 t + 3999. From the flattened aggregated features a
  (one row of 448 = 14 x 32 numbers per graph), the tiled bias b (a row of 448), the scaled pooling weights w (a column
  of 448) and the head's bias l (one number) the body computes
      out g = logistic ((sum over f < 448 of max(a (g, f) + b f, 0) * w f) + l).
  Every point writes its 4000 x 1 block back, the blocks tile the 100000 x 1 result, so the result array ends holding
  that function of the four input arrays.
-/
import proofs.«101361_j20091857011301_2_alg».proof.Proof.Gen.KernelIdeal.Frame
import proofs.«101361_j20091857011301_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PooledHead

open Idealize.ShloMosaic Idealize.ShloMosaic.ValueIdx Idealize.ShloMosaic.TcCoe Idealize.SL.Sem
open Cert.KernelIdeal Cert.KernelIdeal.Gen
open Idealize.ShloMosaic.Pipeline (Dat)

/-- One flattened feature's term: the rectified feature times its pooling weight, the three arrays read where told. -/
def cell {S0 S1 S2 : Shape} (a : S0.Idx → EReal) (b : S1.Idx → EReal) (w : S2.Idx → EReal)
    (i0 : S0.Idx) (i1 : S1.Idx) (i2 : S2.Idx) : EReal :=
  max (a i0 + b i1) (Ideal.ofBits .f32 0x00000000#32) * w i2

/-- The logistic function of a sum plus the bias read where told. -/
def fin {S3 : Shape} (x : EReal) (l : S3.Idx → EReal) (i3 : S3.Idx) : EReal := Ideal.logistic (x + l i3)

/-- One graph's output. -/
def head (a : S100000x448.Idx → EReal) (b : S1x448.Idx → EReal) (w : S448x1.Idx → EReal) (l : S1x1.Idx → EReal) :
    S100000x1.Idx → EReal :=
  fun i => fin (∑ f : Fin 448, cell a b w (ix2 (i 0) f) (ix2 (0 : Fin 1) f) (ix2 f (0 : Fin 1))) l (ix2 (0 : Fin 1) (0 : Fin 1))

/-! ## The body's product at an entry -/

theorem lhs_0 (i : S4000x1.Idx) (q : dot_S4000x448_S448x1_S4000x1_1_0_0_1_n_n.contr.Idx) :
    (dot_S4000x448_S448x1_S4000x1_1_0_0_1_n_n.lhsIdx i q 0).val = (i 0).val := by
  unfold DotDims.lhsIdx
  rw [dif_neg (show ¬(0 : Fin S4000x448.rank) ∈ dot_S4000x448_S448x1_S4000x1_1_0_0_1_n_n.lhsBatch by decide), dif_pos (show (0 : Fin S4000x448.rank) ∈ dot_S4000x448_S448x1_S4000x1_1_0_0_1_n_n.lhsNonContracting by decide)]
  rfl
theorem lhs_1 (i : S4000x1.Idx) (q : dot_S4000x448_S448x1_S4000x1_1_0_0_1_n_n.contr.Idx) :
    (dot_S4000x448_S448x1_S4000x1_1_0_0_1_n_n.lhsIdx i q 1).val = (q ⟨0, by decide⟩).val :=
  dot_S4000x448_S448x1_S4000x1_1_0_0_1_n_n.lhsIdx_val_of_single rfl i q
theorem rhs_0 (i : S4000x1.Idx) (q : dot_S4000x448_S448x1_S4000x1_1_0_0_1_n_n.contr.Idx) :
    (dot_S4000x448_S448x1_S4000x1_1_0_0_1_n_n.rhsIdx i q 0).val = (q ⟨0, by decide⟩).val :=
  dot_S4000x448_S448x1_S4000x1_1_0_0_1_n_n.rhsIdx_val_of_single rfl i q
theorem rhs_1 (i : S4000x1.Idx) (q : dot_S4000x448_S448x1_S4000x1_1_0_0_1_n_n.contr.Idx) :
    (dot_S4000x448_S448x1_S4000x1_1_0_0_1_n_n.rhsIdx i q 1).val = (i 1).val := by
  unfold DotDims.rhsIdx
  rw [dif_neg (show ¬(1 : Fin S448x1.rank) ∈ dot_S4000x448_S448x1_S4000x1_1_0_0_1_n_n.rhsBatch by decide), dif_pos (show (1 : Fin S448x1.rank) ∈ dot_S4000x448_S448x1_S4000x1_1_0_0_1_n_n.rhsNonContracting by decide)]
  rfl

/-- The bias row broadcast along the graphs, read at (r, f): the row at f. -/
theorem bcast_row (v : S1x448.Idx → EReal) (r : Fin 4000) (f : Fin 448) :
    broadcastTo S4000x448 v broadcasts_S1x448_S4000x448 (ix2 r f) = v (ix2 (0 : Fin 1) f) :=
  broadcastTo_apply v broadcasts_S1x448_S4000x448 (ix2 r f) (ix2 (0 : Fin 1) f) (fun a => by
    match a with
    | ⟨0, _⟩ => rfl
    | ⟨1, _⟩ => rfl)

/-- The single bias broadcast along the graphs. -/
theorem bcast_one (v : S1x1.Idx → EReal) (r : Fin 4000) (z : Fin 1) :
    broadcastTo S4000x1 v broadcasts_S1x1_S4000x1 (ix2 r z) = v (ix2 (0 : Fin 1) (0 : Fin 1)) :=
  broadcastTo_apply v broadcasts_S1x1_S4000x1 (ix2 r z) (ix2 (0 : Fin 1) (0 : Fin 1)) (fun a => by
    match a with
    | ⟨0, _⟩ => rfl
    | ⟨1, _⟩ => rfl)

/-- The body's stored value at row r of the block, from the four loaded blocks. -/
theorem pay_apply (x0 : Vec Ideal S4000x448 .f32) (x1 : Vec Ideal S1x448 .f32) (x2 : Vec Ideal S448x1 .f32)
    (x3 : Vec Ideal S1x1 .f32) (r : Fin 4000) (z : Fin 1) :
    k1_pay1 (F := Ideal) x0 x1 x2 x3 (ix2 r z)
      = fin (∑ f : Fin 448, cell x0 x1 x2 (ix2 r f) (ix2 (0 : Fin 1) f) (ix2 f (0 : Fin 1))) x3 (ix2 (0 : Fin 1) (0 : Fin 1)) := by
  have hz : z = 0 := Subsingleton.elim _ _
  subst hz
  unfold k1_pay1 fin
  refine congrArg Ideal.logistic ?_
  refine congrArg₂ (· + ·) ?_ ?_
  · refine (Cert.LibPlainDot.matmul_zero_apply dot_S4000x448_S448x1_S4000x1_1_0_0_1_n_n none 448 rfl rfl _ _ (ix2 r (0 : Fin 1))
      (fun f => ix2 r f) (fun f => ix2 f (0 : Fin 1)) (fun q => ?_) (fun q => ?_)).trans ?_
    · exact Cert.LibPlainDot.ext2 _ _ (lhs_0 _ q) (lhs_1 _ q)
    · exact Cert.LibPlainDot.ext2 _ _ (rhs_0 _ q) (rhs_1 _ q)
    · refine Finset.sum_congr rfl fun f _ => ?_
      show max (shapeCast S4000x448 x0 shapeCasts_S4000x448_S4000x448 (ix2 r f)
          + broadcastTo S4000x448 (shapeCast S1x448 x1 shapeCasts_S1x448_S1x448) broadcasts_S1x448_S4000x448 (ix2 r f))
          (Ideal.ofBits .f32 0x00000000#32) * shapeCast S448x1 x2 shapeCasts_S448x1_S448x1 (ix2 f (0 : Fin 1)) = _
      rw [shapeCast_self, shapeCast_self, shapeCast_self, bcast_row]
      rfl
  · show broadcastTo S4000x1 (shapeCast S1x1 x3 shapeCasts_S1x1_S1x1) broadcasts_S1x1_S4000x1 (ix2 r (0 : Fin 1)) = _
    rw [shapeCast_self, bcast_one]

/-! ## From blocks to the array -/

theorem hz : (![0, 0] : Fin 2 → Nat) = fun _ => 0 := funext fun a => by fin_cases a <;> rfl

/-- The printed index maps over the grid: the graph-axis windows sit at block t, every other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

set_option maxHeartbeats 2000000 in
/-- WHAT POINT t WRITES BACK is block t of `head` of the four arrays as the region finds them. -/
theorem flushed_eq (c : Dev nD) (t : Fin cfg1.N) :
    (dat1 (F := Ideal) V c).flushed 4 t
      = ((cfg1.win 4).blk t).view.read (Elt Ideal) (head (V c main_v35) (V c main_v39) (V c main_v43) (V c main_v44)) := by
  show (cfg1.win 4).cut (grid1.coords t) ((dat1 V c).after 4 t) = _
  rw [after1_4]
  unfold out1_4
  rw [View.canon_unit_zero hz]
  simp only [View.ld_unit_zero (S := S4000x448) hz, View.ld_unit_zero (S := S1x448) hz, View.ld_unit_zero (S := S448x1) hz,
    View.ld_unit_zero (S := S1x1) hz]
  obtain ⟨e00, e01, e10, e11, e20, e21, e30, e31, e40, e41⟩ := idx_facts t
  funext j
  obtain ⟨r, z, rfl⟩ : ∃ (r : Fin 4000) (z : Fin 1), j = ix2 r z := ⟨j 0, j 1, eq_ix2 j⟩
  refine (pay_apply (iblk1 V c 0 t) (iblk1 V c 1 t) (iblk1 V c 2 t) (iblk1 V c 3 t) r z).trans ?_
  show fin (S3 := S1x1) (∑ f : Fin 448, cell (S0 := S100000x448) (S1 := S1x448) (S2 := S448x1) (V c main_v35) (V c main_v39) (V c main_v43)
        (((cfg1.win 0).blk t).view.emb (ix2 r f)) (((cfg1.win 1).blk t).view.emb (ix2 (0 : Fin 1) f))
        (((cfg1.win 2).blk t).view.emb (ix2 f (0 : Fin 1)))) (V c main_v44) (((cfg1.win 3).blk t).view.emb (ix2 (0 : Fin 1) (0 : Fin 1)))
      = head (V c main_v35) (V c main_v39) (V c main_v43) (V c main_v44) (((cfg1.win 4).blk t).view.emb (ix2 r z))
  unfold head
  have h3 : ((cfg1.win 3).blk t).view.emb (ix2 (0 : Fin 1) (0 : Fin 1)) = ix2 (0 : Fin 1) (0 : Fin 1) := by
    funext a; apply Fin.ext
    match a with
    | ⟨0, _⟩ => show win1_3.index t (0 : Fin 2) * 1 + 1 * 0 = 0; omega
    | ⟨1, _⟩ => show win1_3.index t (1 : Fin 2) * 1 + 1 * 0 = 0; omega
  rw [h3]
  refine congrArg (fun x => fin x _ _) (Finset.sum_congr rfl fun f _ => ?_)
  have h0 : ((cfg1.win 0).blk t).view.emb (ix2 r f)
      = ix2 ((((cfg1.win 4).blk t).view.emb (ix2 r z)) 0) f := by
    funext a; apply Fin.ext
    match a with
    | ⟨0, _⟩ => show win1_0.index t (0 : Fin 2) * 4000 + 1 * r.val = win1_4.index t (0 : Fin 2) * 4000 + 1 * r.val; omega
    | ⟨1, _⟩ => show win1_0.index t (1 : Fin 2) * 448 + 1 * f.val = f.val; omega
  have h1 : ((cfg1.win 1).blk t).view.emb (ix2 (0 : Fin 1) f) = ix2 (0 : Fin 1) f := by
    funext a; apply Fin.ext
    match a with
    | ⟨0, _⟩ => show win1_1.index t (0 : Fin 2) * 1 + 1 * 0 = 0; omega
    | ⟨1, _⟩ => show win1_1.index t (1 : Fin 2) * 448 + 1 * f.val = f.val; omega
  have h2 : ((cfg1.win 2).blk t).view.emb (ix2 f (0 : Fin 1)) = ix2 f (0 : Fin 1) := by
    funext a; apply Fin.ext
    match a with
    | ⟨0, _⟩ => show win1_2.index t (0 : Fin 2) * 448 + 1 * f.val = f.val; omega
    | ⟨1, _⟩ => show win1_2.index t (1 : Fin 2) * 1 + 1 * 0 = 0; omega
  rw [h0, h1, h2]
  rfl

/-- An index of the result array is in point t's block iff each coordinate is in the block's range. -/
theorem mem_blk (t : Fin cfg1.N) (i : S100000x1.Idx) :
    i ∈ ((cfg1.win 4).blk t).view.set ↔ ∀ a : Fin 2, win1_4.index t a * S4000x1.size a ≤ (i a).val ∧ (i a).val < win1_4.index t a * S4000x1.size a + S4000x1.size a := by
  show i ∈ ((View.whole main_v45).slice (win1_4.rect t)).set ↔ _
  rw [View.set_slice_whole, Rect.mem_set_unit]
  exact Iff.rfl

/-- Graph g is in the block of point g / 4000. -/
theorem cover (i : S100000x1.Idx) :
    ∃ t : Fin cfg1.N, (cfg1.win 4).flush t = true ∧ i ∈ ((cfg1.win 4).blk t).view.set := by
  have hi0 : (i 0).val < 100000 := (i 0).isLt
  have hi1 : (i 1).val < 1 := (i 1).isLt
  have hN : cfg1.N = 25 := N_1
  let t : Fin cfg1.N := ⟨(i 0).val / 4000, by rw [hN]; omega⟩
  obtain ⟨e00, e01, e10, e11, e20, e21, e30, e31, e40, e41⟩ := idx_facts t
  refine ⟨t, flush1_4 t, ?_⟩
  rw [mem_blk]
  intro a
  have ht : t.val = (i 0).val / 4000 := rfl
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 1 ≤ (i 1).val ∧ (i 1).val < win1_4.index t (1 : Fin 2) * 1 + 1; omega

/-- THE RESULT ARRAY after the region: `head` of the four arrays the region found. -/
theorem final (c : Dev nD) :
    (dat1 (F := Ideal) V c).arrAt 4 cfg1.N = head (V c main_v35) (V c main_v39) (V c main_v43) (V c main_v44) :=
  (dat1 (F := Ideal) V c).arrAt_eq_of_cover 4 _ (fun t _ => flushed_eq V c t) cover

end Cert.KernelIdeal.PooledHead

end
-- ==== Proof.KernelValue.lean ====
/-
  What the idealized kernel program's result buffer holds, as one term of the nine argument arrays.

  Host operations before the first call: the two rows of the edge list (source words, destination words), the source
  words wrapped (a negative word gets the node count added), the per-node scalar s (gather the source node's feature,
  times the edge weight, scatter-add into the destination node; carried as a column), the first bias as a row.
  The first call projects the hidden features (`ProjectedHidden.proj`). Host operations between the calls: the
  second layer's aggregation (gather the source node's row, times the edge weight, scatter-add into the destination
  node's row), flattened to one row per graph; the second bias tiled over the 14 nodes; the pooling weights divided
  by 32 and repeated over the 32 channels; the head's bias. The second call is `PooledHead.head` of those.
-/
import proofs.«101361_j20091857011301_2_alg».proof.Proof.Gen.KernelIdeal.Frame
import proofs.«101361_j20091857011301_2_alg».proof.Proof.ProjectedHidden
import proofs.«101361_j20091857011301_2_alg».proof.Proof.PooledHead
import Idealize.ShloMosaic.Lib.StableHlo.Run
import Idealize.ShloMosaic.PureOps.Ideal

set_option maxRecDepth 16384

noncomputable section

namespace Cert.KernelIdeal.Terms

open Idealize.ShloMosaic Idealize.ShloMosaic.TcCoe Idealize.SL.Sem Idealize.ShloMosaic.StableHlo
open Cert.KernelIdeal Cert.KernelIdeal.Gen

/-- Row 0 of the edge list: each edge's source node word. -/
def srcWords (a1 : IVec S2x2600000 32) : IVec S2600000 32 :=
  shapeCast S2600000 (extractStridedSlice S1x2600000 ![0, 0] a1 slices_S2x2600000_S1x2600000_0_0) shapeCasts_S1x2600000_S2600000
/-- Row 1 of the edge list: each edge's destination node word. -/
def dstWords (a1 : IVec S2x2600000 32) : IVec S2600000 32 :=
  shapeCast S2600000 (extractStridedSlice S1x2600000 ![1, 0] a1 slices_S2x2600000_S1x2600000_1_0) shapeCasts_S1x2600000_S2600000
/-- A negative word gets the node count added; any other word stays. -/
def wrapped (v : IVec S2600000 32) : IVec S2600000 32 :=
  select (cmpi CmpIPredicate.slt v (broadcastInDim S2600000 ![] bcast_S_S2600000 (constantI S_ 32 0#32)))
    (addi v (broadcastInDim S2600000 ![] bcast_S_S2600000 (constantI S_ 32 1400000#32))) v
/-- A vector of words carried as a one-column array. -/
def col (v : IVec S2600000 32) : IVec S2600000x1 32 := broadcastInDim S2600000x1 ![0] bcast_S2600000_S2600000x1_0 v

/-- The (row, column) start pairs of the first layer's gather: the wrapped source word, and 0. -/
def pairs (a1 : IVec S2x2600000 32) : IVec S2600000x2 32 :=
  concatenate S2600000x2 1
    [⟨S2600000x1, col (wrapped (srcWords a1))⟩,
     ⟨S2600000x1, broadcastInDim S2600000x1 ![0] bcast_S2600000_S2600000x1_0
        (id (broadcastInDim S2600000 ![] bcast_S_S2600000 (constantI S_ 32 0#32)))⟩]
    concatenates_S2600000x1_S2600000x1_S2600000x2_d1

/-- The per-node scalar of the first layer, as a vector over the nodes. -/
def nodeSum (a0 : FVec Ideal S1400000x1 .f32) (a1 : IVec S2x2600000 32) (a2 : FVec Ideal S2600000 .f32) :
    FVec Ideal S1400000 .f32 :=
  Host.scatterAdd scatter_S1400000_S2600000x1_S2600000_n_0_0_1
    (broadcastInDim S1400000 ![] bcast_S_S1400000 (constant S_ .f32 0#32))
    (col (dstWords a1))
    (mulf (Host.gather gather_S1400000x1_S2600000x2_S2600000_n_01_n_n_01_1_11 a0 (pairs a1)) a2)

/-- The same carried as a column. -/
def nodeScalar (a0 : FVec Ideal S1400000x1 .f32) (a1 : IVec S2x2600000 32) (a2 : FVec Ideal S2600000 .f32) :
    FVec Ideal S1400000x1 .f32 :=
  broadcastInDim S1400000x1 ![0] bcast_S1400000_S1400000x1_0 (nodeSum a0 a1 a2)

/-- The second layer's aggregation of projected features `h` along the edges. -/
def aggregate (h : FVec Ideal S1400000x32 .f32) (v1 v3 : IVec S2600000 32) (a2 : FVec Ideal S2600000 .f32) :
    FVec Ideal S1400000x32 .f32 :=
  Host.scatterAdd scatter_S1400000x32_S2600000x1_S2600000x32_1_0_0_1
    (broadcastInDim S1400000x32 ![] bcast_S_S1400000x32 (constant S_ .f32 0#32))
    (col v3)
    (mulf (Host.gather gather_S1400000x32_S2600000x1_S2600000x32_1_0_n_n_0_1_132 h (col (wrapped v1)))
      (broadcastInDim S2600000x32 ![0, 1] bcast_S2600000x1_S2600000x32_0_1
        (broadcastInDim S2600000x1 ![0] bcast_S2600000_S2600000x1_0 a2)))

/-- The second bias repeated over the 14 nodes of a graph, as a row of 448. -/
def tiledBias (a6 : FVec Ideal S32 .f32) : FVec Ideal S1x448 .f32 :=
  shapeCast S1x448 (shapeCast S448 (broadcastInDim S14x32 ![0, 1] bcast_S1x32_S14x32_0_1
    (shapeCast S1x32 a6 shapeCasts_S32_S1x32)) shapeCasts_S14x32_S448) shapeCasts_S448_S1x448

/-- The pooling weights divided by 32, each repeated over the 32 channels, as a column of 448. -/
def scaledWeights (a7 : FVec Ideal S14x1 .f32) : FVec Ideal S448x1 .f32 :=
  shapeCast S448x1 (broadcastInDim S14x32 ![0, 1] bcast_S14x1_S14x32_0_1
    (Host.divf a7 (broadcastInDim S14x1 ![] bcast_S_S14x1 (constant S_ .f32 0x42000000#32)))) shapeCasts_S14x32_S448x1

/-- The whole program's result as a term of the argument arrays. -/
def result (a0 : FVec Ideal S1400000x1 .f32) (a1 : IVec S2x2600000 32) (a2 : FVec Ideal S2600000 .f32)
    (a3 : FVec Ideal S1x64 .f32) (a4 : FVec Ideal S64 .f32) (a5 : FVec Ideal S64x32 .f32) (a6 : FVec Ideal S32 .f32)
    (a7 : FVec Ideal S14x1 .f32) (a8 : FVec Ideal S1 .f32) : FVec Ideal S100000x1 .f32 :=
  PooledHead.head
    (shapeCast S100000x448 (aggregate (ProjectedHidden.proj (nodeScalar a0 a1 a2) a3 (shapeCast S1x64 a4 shapeCasts_S64_S1x64) a5)
      (srcWords a1) (dstWords a1) a2) shapeCasts_S1400000x32_S100000x448)
    (tiledBias a6) (scaledWeights a7) (shapeCast S1x1 a8 shapeCasts_S1_S1x1)

variable (m : (ℓ : Loc nD τ sig) → Buf (Elt Ideal) ℓ) (ρ : Dev nD → PrngReg)

/-! ## The first stretch of host operations, read -/

set_option maxHeartbeats 4000000 in
theorem first_scalar (c : Dev nD) : (V1 m ρ c main_v19 : FVec Ideal S1400000x1 .f32)
    = nodeScalar (m ((c : Thread nD τ).loc main_arg0)) (m ((c : Thread nD τ).loc main_arg1)) (m ((c : Thread nD τ).loc main_arg2)) := by
  show StableHlo.after hostOps0 (W0 m ρ c) (Proc.devRef .tc main_v19) = _
  after_results
  rfl

set_option maxHeartbeats 4000000 in
theorem first_bias (c : Dev nD) : (V1 m ρ c main_v20 : FVec Ideal S1x64 .f32)
    = shapeCast S1x64 (m ((c : Thread nD τ).loc main_arg4)) shapeCasts_S64_S1x64 := by
  show StableHlo.after hostOps0 (W0 m ρ c) (Proc.devRef .tc main_v20) = _
  after_results
  rfl

set_option maxHeartbeats 4000000 in
theorem first_w1 (c : Dev nD) : (V1 m ρ c main_arg3 : FVec Ideal S1x64 .f32) = m ((c : Thread nD τ).loc main_arg3) := by
  show StableHlo.after hostOps0 (W0 m ρ c) (Proc.devRef .tc main_arg3) = _
  after_results

set_option maxHeartbeats 4000000 in
theorem first_w2 (c : Dev nD) : (V1 m ρ c main_arg5 : FVec Ideal S64x32 .f32) = m ((c : Thread nD τ).loc main_arg5) := by
  show StableHlo.after hostOps0 (W0 m ρ c) (Proc.devRef .tc main_arg5) = _
  after_results

set_option maxHeartbeats 4000000 in
theorem first_src (c : Dev nD) : (W1 m ρ c (Proc.devRef .tc main_v1) : IVec S2600000 32)
    = srcWords (m ((c : Thread nD τ).loc main_arg1)) := by
  show StableHlo.after hostOps0 (W0 m ρ c) (Proc.devRef .tc main_v1) = _
  after_results
  rfl

set_option maxHeartbeats 4000000 in
theorem first_dst (c : Dev nD) : (W1 m ρ c (Proc.devRef .tc main_v3) : IVec S2600000 32)
    = dstWords (m ((c : Thread nD τ).loc main_arg1)) := by
  show StableHlo.after hostOps0 (W0 m ρ c) (Proc.devRef .tc main_v3) = _
  after_results
  rfl

set_option maxHeartbeats 4000000 in
theorem first_arg (c : Dev nD) :
    (W1 m ρ c (Proc.devRef .tc main_arg2) : FVec Ideal S2600000 .f32) = m ((c : Thread nD τ).loc main_arg2)
    ∧ (W1 m ρ c (Proc.devRef .tc main_arg6) : FVec Ideal S32 .f32) = m ((c : Thread nD τ).loc main_arg6)
    ∧ (W1 m ρ c (Proc.devRef .tc main_arg7) : FVec Ideal S14x1 .f32) = m ((c : Thread nD τ).loc main_arg7)
    ∧ (W1 m ρ c (Proc.devRef .tc main_arg8) : FVec Ideal S1 .f32) = m ((c : Thread nD τ).loc main_arg8) := by
  refine ⟨?_, ?_, ?_, ?_⟩
  · show StableHlo.after hostOps0 (W0 m ρ c) (Proc.devRef .tc main_arg2) = _; after_results
  · show StableHlo.after hostOps0 (W0 m ρ c) (Proc.devRef .tc main_arg6) = _; after_results
  · show StableHlo.after hostOps0 (W0 m ρ c) (Proc.devRef .tc main_arg7) = _; after_results
  · show StableHlo.after hostOps0 (W0 m ρ c) (Proc.devRef .tc main_arg8) = _; after_results

/-! ## After the first call -/

/-- The first call's result array: the projected hidden features of the first stretch's arrays. -/
theorem projected (c : Dev nD) : (W2 m ρ c (Proc.devRef .tc main_v21) : FVec Ideal S1400000x32 .f32)
    = ProjectedHidden.proj (nodeScalar (m ((c : Thread nD τ).loc main_arg0)) (m ((c : Thread nD τ).loc main_arg1)) (m ((c : Thread nD τ).loc main_arg2)))
        (m ((c : Thread nD τ).loc main_arg3)) (shapeCast S1x64 (m ((c : Thread nD τ).loc main_arg4)) shapeCasts_S64_S1x64)
        (m ((c : Thread nD τ).loc main_arg5)) := by
  refine (W2_arr m ρ c 4).trans ?_
  rw [ProjectedHidden.final (V1 m ρ) c, first_scalar, first_bias, first_w1, first_w2]

/-! ## The second stretch of host operations, read -/

set_option maxHeartbeats 8000000 in
theorem second_flat (c : Dev nD) : (V3 m ρ c main_v35 : FVec Ideal S100000x448 .f32)
    = shapeCast S100000x448 (aggregate (W2 m ρ c (Proc.devRef .tc main_v21)) (W2 m ρ c (Proc.devRef .tc main_v1))
        (W2 m ρ c (Proc.devRef .tc main_v3)) (W2 m ρ c (Proc.devRef .tc main_arg2))) shapeCasts_S1400000x32_S100000x448 := by
  show StableHlo.after hostOps1 (W2 m ρ c) (Proc.devRef .tc main_v35) = _
  after_results
  rfl

set_option maxHeartbeats 4000000 in
theorem second_bias (c : Dev nD) : (V3 m ρ c main_v39 : FVec Ideal S1x448 .f32)
    = tiledBias (W2 m ρ c (Proc.devRef .tc main_arg6)) := by
  show StableHlo.after hostOps1 (W2 m ρ c) (Proc.devRef .tc main_v39) = _
  after_results
  rfl

set_option maxHeartbeats 4000000 in
theorem second_weights (c : Dev nD) : (V3 m ρ c main_v43 : FVec Ideal S448x1 .f32)
    = scaledWeights (W2 m ρ c (Proc.devRef .tc main_arg7)) := by
  show StableHlo.after hostOps1 (W2 m ρ c) (Proc.devRef .tc main_v43) = _
  after_results
  rfl

set_option maxHeartbeats 4000000 in
theorem second_head_bias (c : Dev nD) : (V3 m ρ c main_v44 : FVec Ideal S1x1 .f32)
    = shapeCast S1x1 (W2 m ρ c (Proc.devRef .tc main_arg8)) shapeCasts_S1_S1x1 := by
  show StableHlo.after hostOps1 (W2 m ρ c) (Proc.devRef .tc main_v44) = _
  after_results
  rfl

/-! ## The result -/

/-- THE RESULT BUFFER at the last boundary is `result` of the nine argument arrays. -/
theorem result_eq (c : Dev nD) : (W4 m ρ c (Proc.devRef .tc main_v45) : FVec Ideal S100000x1 .f32)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  obtain ⟨e2, e6, e7, e8⟩ := first_arg m ρ c
  have k1 : (W2 m ρ c (Proc.devRef .tc main_v1) : IVec S2600000 32) = srcWords (m ((c : Thread nD τ).loc main_arg1)) :=
    (W2_of_ne m ρ c main_v1 (by decide)).trans (first_src m ρ c)
  have k3 : (W2 m ρ c (Proc.devRef .tc main_v3) : IVec S2600000 32) = dstWords (m ((c : Thread nD τ).loc main_arg1)) :=
    (W2_of_ne m ρ c main_v3 (by decide)).trans (first_dst m ρ c)
  have k2 : (W2 m ρ c (Proc.devRef .tc main_arg2) : FVec Ideal S2600000 .f32) = m ((c : Thread nD τ).loc main_arg2) :=
    (W2_of_ne m ρ c main_arg2 (by decide)).trans e2
  have k6 : (W2 m ρ c (Proc.devRef .tc main_arg6) : FVec Ideal S32 .f32) = m ((c : Thread nD τ).loc main_arg6) :=
    (W2_of_ne m ρ c main_arg6 (by decide)).trans e6
  have k7 : (W2 m ρ c (Proc.devRef .tc main_arg7) : FVec Ideal S14x1 .f32) = m ((c : Thread nD τ).loc main_arg7) :=
    (W2_of_ne m ρ c main_arg7 (by decide)).trans e7
  have k8 : (W2 m ρ c (Proc.devRef .tc main_arg8) : FVec Ideal S1 .f32) = m ((c : Thread nD τ).loc main_arg8) :=
    (W2_of_ne m ρ c main_arg8 (by decide)).trans e8
  refine (W4_arr m ρ c 4).trans ?_
  rw [PooledHead.final (V3 m ρ) c, second_flat, second_bias, second_weights, second_head_bias, projected, k1, k3, k2, k6, k7, k8]
  rfl

end Cert.KernelIdeal.Terms

end
-- ==== Proof.FiniteInputs.lean ====
/-
  What the precondition gives: the node features, the edge weights and the first layer's weights are real numbers.

  The precondition is the conjunction, over the eight float inputs, of "every element's absolute value is below
  +infinity". An extended real whose absolute value max(x, -x) is below the top element is neither infinity, so it
  is a real. Only the first three conjuncts are opened: they are what the first layer's law needs.
-/
import proofs.«101361_j20091857011301_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.FiniteInputs

open Idealize.ShloMosaic Idealize.ShloMosaic.ValueIdx Cert.Pre_finite_inputs

instance : Subsingleton S_.Idx := ⟨fun a b => funext fun d => d.elim0⟩

/-- The word of +infinity denotes the top element. -/
theorem ofBits_inf : Ideal.ofBits .f32 0x7F800000#32 = (⊤ : EReal) := by
  simp [Ideal.ofBits, Ideal.ieee]

/-- An extended real with absolute value below +infinity is a real. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- Under the precondition the node features, the edge weights and the first layer's weights are real. -/
theorem reals (x0 : FVec Ideal S1400000x1 .f32) (x1 : IVec S2x2600000 32) (x2 : FVec Ideal S2600000 .f32)
    (x3 : FVec Ideal S1x64 .f32) (x4 : FVec Ideal S64 .f32) (x5 : FVec Ideal S64x32 .f32) (x6 : FVec Ideal S32 .f32)
    (x7 : FVec Ideal S14x1 .f32) (x8 : FVec Ideal S1 .f32)
    (h : fn (F := Ideal) x0 x1 x2 x3 x4 x5 x6 x7 x8 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ix0
  dsimp only [fn, fn_part1, fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, hW1⟩ := IntOp.andi_eq_one.1 h0
  obtain ⟨hx, hew⟩ := IntOp.andi_eq_one.1 h0
  refine ⟨fun i => ?_, fun i => ?_, fun i => ?_⟩
  · exact real_of_abs_lt _ (Host.reduce_andi_all _ _ _ _ _ hx i)
  · exact real_of_abs_lt _ (Host.reduce_andi_all _ _ _ _ _ hew i)
  · exact real_of_abs_lt _ (Host.reduce_andi_all _ _ _ _ _ hW1 i)

end Cert.FiniteInputs

end
-- ==== Proof.KernelReads.lean ====
/-
  The kernel program's host-side terms, read at an index.

  The flattened aggregation at (g, 32 j + k) is the aggregation at node 14 g + j, channel k; the tiled bias at
  32 j + k is the bias of channel k; the scaled weights at 32 j + k are weight j divided by 32.
-/
import proofs.«101361_j20091857011301_2_alg».proof.Proof.KernelValue
import Idealize.ShloMosaic.Lib.Pipeline.Value
import Idealize.ShloMosaic.Lib.ValueIdx

set_option maxRecDepth 16384

noncomputable section

namespace Cert.KernelIdeal.Terms

open Idealize.ShloMosaic Idealize.ShloMosaic.ValueIdx Idealize.ShloMosaic.TcCoe
open Cert.KernelIdeal Cert.KernelIdeal.Gen

/-- The first bias as a row, at channel c. -/
theorem biasRow_apply (a4 : FVec Ideal S64 .f32) (c : Fin 64) :
    shapeCast S1x64 a4 shapeCasts_S64_S1x64 (ix2 (0 : Fin 1) c) = a4 (ix1 c) :=
  shapeCast_apply a4 shapeCasts_S64_S1x64 (ix2 (0 : Fin 1) c) (ix1 c)
    (by rewrite [Shape.rowMajor_val_one, Shape.rowMajor_val_two]; show c.val = 0 * 64 + c.val; omega)

/-- The head's bias as a 1 x 1 array. -/
theorem headBias_apply (a8 : FVec Ideal S1 .f32) :
    shapeCast S1x1 a8 shapeCasts_S1_S1x1 (ix2 (0 : Fin 1) (0 : Fin 1)) = a8 (ix1 (0 : Fin 1)) :=
  shapeCast_apply a8 shapeCasts_S1_S1x1 (ix2 (0 : Fin 1) (0 : Fin 1)) (ix1 (0 : Fin 1))
    (by rewrite [Shape.rowMajor_val_one, Shape.rowMajor_val_two]; show 0 = 0 * 1 + 0; omega)

/-- One row per graph: entry 32 j + k of graph g's row is channel k of node 14 g + j. -/
theorem flat_apply (h : FVec Ideal S1400000x32 .f32) (g : Fin 100000) (j : Fin 14) (k : Fin 32) :
    shapeCast S100000x448 h shapeCasts_S1400000x32_S100000x448 (ix2 g (⟨32 * j.val + k.val, by omega⟩ : Fin 448))
      = h (ix2 (⟨14 * g.val + j.val, by omega⟩ : Fin 1400000) k) :=
  shapeCast_apply h shapeCasts_S1400000x32_S100000x448 _ _
    (by rewrite [Shape.rowMajor_val_two, Shape.rowMajor_val_two]
        show (14 * g.val + j.val) * 32 + k.val = g.val * 448 + (32 * j.val + k.val); omega)

/-- The tiled bias at 32 j + k is the bias of channel k. -/
theorem tiledBias_apply (a6 : FVec Ideal S32 .f32) (j : Fin 14) (k : Fin 32) :
    tiledBias a6 (ix2 (0 : Fin 1) (⟨32 * j.val + k.val, by omega⟩ : Fin 448)) = a6 (ix1 k) := by
  unfold tiledBias
  refine (shapeCast_apply _ shapeCasts_S448_S1x448 _ (ix1 (⟨32 * j.val + k.val, by omega⟩ : Fin 448))
    (by rewrite [Shape.rowMajor_val_one, Shape.rowMajor_val_two]
        show 32 * j.val + k.val = 0 * 448 + (32 * j.val + k.val); omega)).trans ?_
  refine (shapeCast_apply _ shapeCasts_S14x32_S448 _ (ix2 j k)
    (by rewrite [Shape.rowMajor_val_two, Shape.rowMajor_val_one]
        show j.val * 32 + k.val = 32 * j.val + k.val; omega)).trans ?_
  refine (broadcastInDim_apply ![0, 1] bcast_S1x32_S14x32_0_1 _ (ix2 j k) (ix2 (0 : Fin 1) k) (fun a => by
    match a with
    | ⟨0, _⟩ => rfl
    | ⟨1, _⟩ => rfl)).trans ?_
  exact shapeCast_apply a6 shapeCasts_S32_S1x32 (ix2 (0 : Fin 1) k) (ix1 k)
    (by rewrite [Shape.rowMajor_val_one, Shape.rowMajor_val_two]; show k.val = 0 * 32 + k.val; omega)

/-- The scaled weights at 32 j + k are weight j divided by 32. -/
theorem scaledWeights_apply (a7 : FVec Ideal S14x1 .f32) (j : Fin 14) (k : Fin 32) :
    scaledWeights a7 (ix2 (⟨32 * j.val + k.val, by omega⟩ : Fin 448) (0 : Fin 1))
      = Ideal.div (a7 (ix2 j (0 : Fin 1))) (Ideal.ofBits .f32 0x42000000#32) := by
  unfold scaledWeights
  refine (shapeCast_apply _ shapeCasts_S14x32_S448x1 _ (ix2 j k)
    (by rewrite [Shape.rowMajor_val_two, Shape.rowMajor_val_two]
        show j.val * 32 + k.val = (32 * j.val + k.val) * 1 + 0; omega)).trans ?_
  refine (broadcastInDim_apply ![0, 1] bcast_S14x1_S14x32_0_1 _ (ix2 j k) (ix2 j (0 : Fin 1)) (fun a => by
    match a with
    | ⟨0, _⟩ => rfl
    | ⟨1, _⟩ => rfl)).trans ?_
  rfl

end Cert.KernelIdeal.Terms

end
-- ==== Proof.LibScatterCol.lean ====
/-
  A count scattered into a vector and the same count scattered into a one-column matrix.

  The host's accumulating scatter adds, to each operand element, the updates whose result index is that element.
  With one scatter index per update (the index array an [E, 1] column, read signed and not clamped) there are two
  spellings of "add update e at row idx e": into an [N] vector from an [E] vector of updates (no window axis, the
  operand's only axis inserted), and into an [N, 1] matrix from an [E, 1] matrix of updates (the second axis a
  window of extent one). Update e lands on row n in either spelling exactly when the signed index word of e is n,
  so the two results agree row by row whenever the operands and the updates do.
-/
import Idealize.ShloMosaic.Lib.ValueIdx
import Idealize.ShloMosaic.Lib.Pipeline.Value
import Idealize.ShloMosaic.PureOps.Ideal.Laws

noncomputable section

namespace Cert.ScatterCol

open Idealize.ShloMosaic Idealize.ShloMosaic.ValueIdx

variable {N E : Nat}

/-- The dimension numbers of the scatter into a vector: no window axis, the operand's axis inserted. -/
abbrev dvec (h : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, h⟩
/-- The dimension numbers of the scatter into a one-column matrix: the second axis a window. -/
abbrev dcol (h : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ := ⟨[1], [0], [0], 1, h⟩

theorem start_vec (h) {w : Nat} (j : (⟨1, ![E]⟩ : Shape).Idx) (idx : IVec ⟨2, ![E, 1]⟩ w) :
    (dvec (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem window_vec (h) (j : (⟨1, ![E]⟩ : Shape).Idx) : (dvec (N := N) h).window j 0 = 0 := rfl

theorem start_col0 (h) {w : Nat} (j : (⟨2, ![E, 1]⟩ : Shape).Idx) (idx : IVec ⟨2, ![E, 1]⟩ w) :
    (dcol (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem start_col1 (h) {w : Nat} (j : (⟨2, ![E, 1]⟩ : Shape).Idx) (idx : IVec ⟨2, ![E, 1]⟩ w) :
    (dcol (N := N) h).start j idx 1 = 0 := rfl
theorem window_col0 (h) (j : (⟨2, ![E, 1]⟩ : Shape).Idx) : (dcol (N := N) h).window j 0 = 0 := rfl
theorem window_col1 (h) (j : (⟨2, ![E, 1]⟩ : Shape).Idx) : (dcol (N := N) h).window j 1 = (j 1).val := rfl

/-- Into the vector, update j lands on element i exactly when its signed index word is i's coordinate. -/
theorem resultIdx_vec_iff (h) {w : Nat} (j : (⟨1, ![E]⟩ : Shape).Idx) (idx : IVec ⟨2, ![E, 1]⟩ w)
    (i : (⟨1, ![N]⟩ : Shape).Idx) :
    (dvec (N := N) h).resultIdx? j idx = some i ↔ (idx (ix2 (j 0) (0 : Fin 1))).toInt = ((i 0).val : Int) := by
  have hs := start_vec (N := N) h j idx
  have hw := window_vec (N := N) h j
  have hi : (i 0).val < N := (i 0).isLt
  unfold ScatterDims.resultIdx?
  split
  · rename_i hall
    have h0 : 0 ≤ (dvec (N := N) h).start j idx 0 + ((dvec (N := N) h).window j 0 : Int)
        ∧ (dvec (N := N) h).start j idx 0 + ((dvec (N := N) h).window j 0 : Int) < (N : Int) := hall 0
    rw [hs, hw] at h0
    rw [Option.some.injEq]
    constructor
    · intro e
      have e0 : ((dvec (N := N) h).start j idx 0 + ((dvec (N := N) h).window j 0 : Int)).toNat = (i 0).val :=
        congrArg (fun f => (f 0).val) e
      rw [hs, hw] at e0
      omega
    · intro e
      funext a
      match a with
      | ⟨0, _⟩ =>
        apply Fin.ext
        show ((dvec (N := N) h).start j idx 0 + ((dvec (N := N) h).window j 0 : Int)).toNat = (i 0).val
        rw [hs, hw]; omega
  · rename_i hnot
    constructor
    · intro e; cases e
    · intro e
      exfalso; apply hnot
      intro a
      match a with
      | ⟨0, _⟩ =>
        show 0 ≤ (dvec (N := N) h).start j idx 0 + ((dvec (N := N) h).window j 0 : Int)
          ∧ (dvec (N := N) h).start j idx 0 + ((dvec (N := N) h).window j 0 : Int) < (N : Int)
        rw [hs, hw]; omega

/-- Into the one-column matrix, update j lands on element i exactly when its signed index word is i's row. -/
theorem resultIdx_col_iff (h) {w : Nat} (j : (⟨2, ![E, 1]⟩ : Shape).Idx) (idx : IVec ⟨2, ![E, 1]⟩ w)
    (i : (⟨2, ![N, 1]⟩ : Shape).Idx) :
    (dcol (N := N) h).resultIdx? j idx = some i ↔ (idx (ix2 (j 0) (0 : Fin 1))).toInt = ((i 0).val : Int) := by
  have hs0 := start_col0 (N := N) h j idx
  have hs1 := start_col1 (N := N) h j idx
  have hw0 := window_col0 (N := N) h j
  have hw1 := window_col1 (N := N) h j
  have hi : (i 0).val < N := (i 0).isLt
  have hi1 : (i 1).val < 1 := (i 1).isLt
  have hj1 : (j 1).val < 1 := (j 1).isLt
  unfold ScatterDims.resultIdx?
  split
  · rename_i hall
    have h0 : 0 ≤ (dcol (N := N) h).start j idx 0 + ((dcol (N := N) h).window j 0 : Int)
        ∧ (dcol (N := N) h).start j idx 0 + ((dcol (N := N) h).window j 0 : Int) < (N : Int) := hall 0
    rw [hs0, hw0] at h0
    rw [Option.some.injEq]
    constructor
    · intro e
      have e0 : ((dcol (N := N) h).start j idx 0 + ((dcol (N := N) h).window j 0 : Int)).toNat = (i 0).val :=
        congrArg (fun f => (f 0).val) e
      rw [hs0, hw0] at e0
      omega
    · intro e
      funext a
      match a with
      | ⟨0, _⟩ =>
        apply Fin.ext
        show ((dcol (N := N) h).start j idx 0 + ((dcol (N := N) h).window j 0 : Int)).toNat = (i 0).val
        rw [hs0, hw0]; omega
      | ⟨1, _⟩ =>
        apply Fin.ext
        show ((dcol (N := N) h).start j idx 1 + ((dcol (N := N) h).window j 1 : Int)).toNat = (i 1).val
        rw [hs1, hw1]; omega
  · rename_i hnot
    constructor
    · intro e; cases e
    · intro e
      exfalso; apply hnot
      intro a
      match a with
      | ⟨0, _⟩ =>
        show 0 ≤ (dcol (N := N) h).start j idx 0 + ((dcol (N := N) h).window j 0 : Int)
          ∧ (dcol (N := N) h).start j idx 0 + ((dcol (N := N) h).window j 0 : Int) < (N : Int)
        rw [hs0, hw0]; omega
      | ⟨1, _⟩ =>
        show 0 ≤ (dcol (N := N) h).start j idx 1 + ((dcol (N := N) h).window j 1 : Int)
          ∧ (dcol (N := N) h).start j idx 1 + ((dcol (N := N) h).window j 1 : Int) < ((1 : Nat) : Int)
        rw [hs1, hw1]; omega

/-- The [E, 1] update indices are the [E] update indices, by the first coordinate. -/
def colEquiv : (⟨2, ![E, 1]⟩ : Shape).Idx ≃ (⟨1, ![E]⟩ : Shape).Idx where
  toFun j := ix1 (j 0)
  invFun j := ix2 (j 0) (0 : Fin 1)
  left_inv j := by
    funext a
    match a with
    | ⟨0, _⟩ => rfl
    | ⟨1, _⟩ => exact Fin.ext (by have h1 : (j 1).val < 1 := (j 1).isLt; show 0 = (j 1).val; omega)
  right_inv j := by
    funext a
    match a with
    | ⟨0, _⟩ => rfl

/-- The scatter into the one-column matrix, at row n, is the scatter into the vector at n, when the operands
    agree at that row and the updates agree row by row. -/
theorem scatterAdd_col_eq_vec (hv) (hc) {w : Nat} (idx : IVec ⟨2, ![E, 1]⟩ w)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (n : Fin N) (hx : x2 (ix2 n (0 : Fin 1)) = x1 (ix1 n))
    (hu : ∀ e : Fin E, u2 (ix2 e (0 : Fin 1)) = u1 (ix1 e)) :
    Ideal.hostScatterAdd (dcol (N := N) hc) x2 idx u2 (ix2 n (0 : Fin 1))
      = Ideal.hostScatterAdd (dvec (N := N) hv) x1 idx u1 (ix1 n) := by
  unfold Ideal.hostScatterAdd
  rw [hx]
  refine congrArg (x1 (ix1 n) + ·) ?_
  refine Finset.sum_equiv colEquiv (fun j => ?_) (fun j _ => ?_)
  · simp only [Finset.mem_filter, Finset.mem_univ, true_and]
    rw [resultIdx_col_iff, resultIdx_vec_iff]
    exact Iff.rfl
  · have hj : j = ix2 (j 0) (0 : Fin 1) := (colEquiv.left_inv j).symm
    rw [hj]
    exact hu (j 0)

end Cert.ScatterCol

end
-- ==== Proof.LibScatterSum.lean ====
/-
  The host's accumulating scatter, one scatter index per update row, read at an element as a sum over the rows.

  With the scatter indices an [E, 1] column (read signed, not clamped) an update row e lands on operand row n exactly
  when the signed word idx[e, 0] is n. Two spellings: [E] updates into an [N] vector, and [E, C] update rows into an
  [N, C] matrix (the second axis a window axis: update (e, k) lands on (n, k)). Either result element is the operand
  element plus the sum, over all rows e, of the update of row e when that row lands on n and of zero otherwise.
-/
import proofs.«101361_j20091857011301_2_alg».proof.Proof.LibScatterCol

noncomputable section

namespace Cert.ScatterSum

open Idealize.ShloMosaic Idealize.ShloMosaic.ValueIdx Cert.ScatterCol

variable {N C E : Nat}

/-- The dimension numbers of the scatter of rows into a matrix: the second axis a window, the first inserted. -/
abbrev dmat (h : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, h⟩

theorem start_mat0 (h) {w : Nat} (j : (⟨2, ![E, C]⟩ : Shape).Idx) (idx : IVec ⟨2, ![E, 1]⟩ w) :
    (dmat (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem start_mat1 (h) {w : Nat} (j : (⟨2, ![E, C]⟩ : Shape).Idx) (idx : IVec ⟨2, ![E, 1]⟩ w) :
    (dmat (N := N) h).start j idx 1 = 0 := rfl
theorem window_mat0 (h) (j : (⟨2, ![E, C]⟩ : Shape).Idx) : (dmat (N := N) h).window j 0 = 0 := rfl
theorem window_mat1 (h) (j : (⟨2, ![E, C]⟩ : Shape).Idx) : (dmat (N := N) h).window j 1 = (j 1).val := rfl

/-- Into the matrix, update (e, k) lands on element (n, k') exactly when the signed index word of row e is n and
    k = k'. -/
theorem resultIdx_mat_iff (h) {w : Nat} (j : (⟨2, ![E, C]⟩ : Shape).Idx) (idx : IVec ⟨2, ![E, 1]⟩ w)
    (i : (⟨2, ![N, C]⟩ : Shape).Idx) :
    (dmat (N := N) h).resultIdx? j idx = some i
      ↔ (idx (ix2 (j 0) (0 : Fin 1))).toInt = ((i 0).val : Int) ∧ (j 1).val = (i 1).val := by
  have hs0 := start_mat0 (N := N) h j idx
  have hs1 := start_mat1 (N := N) h j idx
  have hw0 := window_mat0 (N := N) h j
  have hw1 := window_mat1 (N := N) h j
  have hi : (i 0).val < N := (i 0).isLt
  have hi1 : (i 1).val < C := (i 1).isLt
  have hj1 : (j 1).val < C := (j 1).isLt
  unfold ScatterDims.resultIdx?
  split
  · rename_i hall
    have h0 : 0 ≤ (dmat (N := N) h).start j idx 0 + ((dmat (N := N) h).window j 0 : Int)
        ∧ (dmat (N := N) h).start j idx 0 + ((dmat (N := N) h).window j 0 : Int) < (N : Int) := hall 0
    rw [hs0, hw0] at h0
    rw [Option.some.injEq]
    constructor
    · intro e
      have e0 : ((dmat (N := N) h).start j idx 0 + ((dmat (N := N) h).window j 0 : Int)).toNat = (i 0).val :=
        congrArg (fun f => (f 0).val) e
      have e1 : ((dmat (N := N) h).start j idx 1 + ((dmat (N := N) h).window j 1 : Int)).toNat = (i 1).val :=
        congrArg (fun f => (f 1).val) e
      rw [hs0, hw0] at e0
      rw [hs1, hw1] at e1
      omega
    · intro e
      funext a
      match a with
      | ⟨0, _⟩ =>
        apply Fin.ext
        show ((dmat (N := N) h).start j idx 0 + ((dmat (N := N) h).window j 0 : Int)).toNat = (i 0).val
        rw [hs0, hw0]; omega
      | ⟨1, _⟩ =>
        apply Fin.ext
        show ((dmat (N := N) h).start j idx 1 + ((dmat (N := N) h).window j 1 : Int)).toNat = (i 1).val
        rw [hs1, hw1]; omega
  · rename_i hnot
    constructor
    · intro e; cases e
    · intro e
      exfalso; apply hnot
      intro a
      match a with
      | ⟨0, _⟩ =>
        show 0 ≤ (dmat (N := N) h).start j idx 0 + ((dmat (N := N) h).window j 0 : Int)
          ∧ (dmat (N := N) h).start j idx 0 + ((dmat (N := N) h).window j 0 : Int) < (N : Int)
        rw [hs0, hw0]; omega
      | ⟨1, _⟩ =>
        show 0 ≤ (dmat (N := N) h).start j idx 1 + ((dmat (N := N) h).window j 1 : Int)
          ∧ (dmat (N := N) h).start j idx 1 + ((dmat (N := N) h).window j 1 : Int) < ((C : Nat) : Int)
        rw [hs1, hw1]; omega

/-- The host's accumulating scatter at the exact instance is the sum it denotes (by definition). -/
theorem scatterAdd_ideal {s si su : Shape} {φ : FTy} (d : ScatterDims s si su) {w : Nat} (x : FVec Ideal s φ)
    (idx : IVec si w) (u : FVec Ideal su φ) : Host.scatterAdd d x idx u = Ideal.hostScatterAdd d x idx u := rfl

/-- THE SCATTER OF ROWS READ AT (n, k): the operand there plus, over the rows e, update (e, k) when row e's signed
    index word is n. -/
theorem scatterAdd_mat_apply (h) {w : Nat} (idx : IVec ⟨2, ![E, 1]⟩ w)
    (x : (⟨2, ![N, C]⟩ : Shape).Idx → EReal) (u : (⟨2, ![E, C]⟩ : Shape).Idx → EReal) (n : Fin N) (k : Fin C) :
    Ideal.hostScatterAdd (dmat (N := N) h) x idx u (ix2 n k)
      = x (ix2 n k) + ∑ e : Fin E, if (idx (ix2 e (0 : Fin 1))).toInt = (n.val : Int) then u (ix2 e k) else 0 := by
  unfold Ideal.hostScatterAdd
  refine congrArg (x (ix2 n k) + ·) ?_
  rw [← Finset.sum_filter]
  refine Finset.sum_bij (fun j _ => j 0) (fun j hj => ?_) (fun j hj j' hj' e => ?_) (fun e he => ?_) (fun j hj => ?_)
  · have := (resultIdx_mat_iff (N := N) h j idx (ix2 n k)).mp (Finset.mem_filter.mp hj).2
    exact Finset.mem_filter.mpr ⟨Finset.mem_univ _, this.1⟩
  · have a := (resultIdx_mat_iff (N := N) h j idx (ix2 n k)).mp (Finset.mem_filter.mp hj).2
    have a' := (resultIdx_mat_iff (N := N) h j' idx (ix2 n k)).mp (Finset.mem_filter.mp hj').2
    rw [eq_ix2 j, eq_ix2 j']
    have e1 : j 1 = j' 1 := Fin.ext (a.2.trans a'.2.symm)
    have e0 : j 0 = j' 0 := e
    rw [e0, e1]
  · refine ⟨ix2 e k, Finset.mem_filter.mpr ⟨Finset.mem_univ _, ?_⟩, rfl⟩
    exact (resultIdx_mat_iff (N := N) h (ix2 e k) idx (ix2 n k)).mpr ⟨(Finset.mem_filter.mp he).2, rfl⟩
  · have a := (resultIdx_mat_iff (N := N) h j idx (ix2 n k)).mp (Finset.mem_filter.mp hj).2
    have e1 : j 1 = k := Fin.ext a.2
    exact congrArg u ((eq_ix2 j).trans (congrArg (fun z => ix2 (j 0) z) e1))

/-- THE SCATTER INTO A VECTOR READ AT n: the operand there plus, over the rows e, update e when row e's signed
    index word is n. -/
theorem scatterAdd_vec_apply (h) {w : Nat} (idx : IVec ⟨2, ![E, 1]⟩ w)
    (x : (⟨1, ![N]⟩ : Shape).Idx → EReal) (u : (⟨1, ![E]⟩ : Shape).Idx → EReal) (n : Fin N) :
    Ideal.hostScatterAdd (dvec (N := N) h) x idx u (ix1 n)
      = x (ix1 n) + ∑ e : Fin E, if (idx (ix2 e (0 : Fin 1))).toInt = (n.val : Int) then u (ix1 e) else 0 := by
  unfold Ideal.hostScatterAdd
  refine congrArg (x (ix1 n) + ·) ?_
  rw [← Finset.sum_filter]
  refine Finset.sum_bij (fun j _ => j 0) (fun j hj => ?_) (fun j hj j' hj' e => ?_) (fun e he => ?_) (fun j hj => ?_)
  · have := (resultIdx_vec_iff (N := N) h j idx (ix1 n)).mp (Finset.mem_filter.mp hj).2
    exact Finset.mem_filter.mpr ⟨Finset.mem_univ _, this⟩
  · rw [eq_ix1 j, eq_ix1 j']
    have e0 : j 0 = j' 0 := e
    rw [e0]
  · refine ⟨ix1 e, Finset.mem_filter.mpr ⟨Finset.mem_univ _, ?_⟩, rfl⟩
    exact (resultIdx_vec_iff (N := N) h (ix1 e) idx (ix1 n)).mpr (Finset.mem_filter.mp he).2
  · exact congrArg u (eq_ix1 j)

end Cert.ScatterSum

end
-- ==== Proof.LibGatherRows.lean ====
/-
  `stablehlo.gather` of whole rows of a matrix, read at an index.

  What `x[idx]` of a table `x : [N, C]` at an integer vector `idx : [E]` lowers to, the vector carried as an
  `[E, 1]` array of start indices: offset axes `[1]`, collapsed axes `[0]`, start index map `[0]`, the index vector on
  axis 1, slice sizes `[1, C]`. Result element `(e, k)` is the table's element `(r, k)`, the row `r` being the start
  word `idx[e, 0]` read as a signed integer and clamped into `[0, N - 1]`: a negative word reads row 0, a word past
  the table its last row.
-/
import Idealize.ShloMosaic.Lib.ValueIdx

noncomputable section

namespace Idealize.ShloMosaic.ValueIdx

open Idealize.ShloMosaic

section Rows
variable {α : Type}

/-- Those dimension numbers for a table `[N, C]`, start indices `[E, 1]` and a result `[E, C]`; their conditions are
    decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def clampRow (N : Nat) {w : Nat} (v : BitVec w) : Nat := min v.toInt.toNat (N - 1)

theorem clampRow_lt {N : Nat} (hN : 0 < N) {w : Nat} (v : BitVec w) : clampRow N v < N := by
  unfold clampRow; omega

/-- THE GATHER READ AT `(e, k)`: the table at row `clampRow N idx[e, 0]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨clampRow N (idx (ix2 e (0 : Fin 1))), clampRow_lt hN _⟩ k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    unfold GatherDims.start
    rw [dif_neg (show ¬ (1 : Fin 2) ∈ (rowsDims N C E wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowsDims N C E wf).sKept from (GatherDims.mem_sKept _ _).mpr
      ⟨fun h => absurd (congrArg Fin.val (List.mem_singleton.mp h)) Nat.one_ne_zero, List.not_mem_nil⟩)]
    rfl

end Rows

end Idealize.ShloMosaic.ValueIdx

end
-- ==== Proof.LibGatherCell.lean ====
/-
  `stablehlo.gather` of single cells of a one-column matrix, read at an index.

  What `x[idx, 0]` of a table `x : [N, 1]` at an integer vector `idx : [E]` lowers to, the vector carried as an
  `[E, 2]` array of (row, column) start pairs: no offset axes, both operand axes collapsed, start index map `[0, 1]`,
  the index vector on axis 1, slice sizes `[1, 1]`. Result element `e` is the table's element `(r, 0)`, the row `r`
  being the start word `idx[e, 0]` read as a signed integer and clamped into `[0, N - 1]`; the column can only be 0.
-/
import proofs.«101361_j20091857011301_2_alg».proof.Proof.LibGatherRows

noncomputable section

namespace Idealize.ShloMosaic.ValueIdx

open Idealize.ShloMosaic

section Cell
variable {α : Type}

/-- Those dimension numbers for a table `[N, 1]`, start pairs `[E, 2]` and a result `[E]`. -/
abbrev cellDims (N E : Nat)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE GATHER READ AT `e`: the table at row `clampRow N idx[e, 0]`, column 0. -/
theorem gather_cell_apply {N E w : Nat} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (cellDims N E wf) x idx (ix1 e)
      = x (ix2 ⟨clampRow N (idx (ix2 e (0 : Fin 2))), clampRow_lt hN _⟩ (0 : Fin 1)) := by
  unfold Host.gather
  congr 1
  funext a
  refine Fin.ext ?_
  match a with
  | ⟨0, _⟩ =>
    show (cellDims N E wf).start (ix1 e) idx 0 + (cellDims N E wf).batchCoord (ix1 e) 0
      + (cellDims N E wf).offCoord (ix1 e) 0 = _
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ (cellDims N E wf).startIndexMap from List.mem_cons_self ..)]
    have hsi : (cellDims N E wf).siIdx (ix1 e) ⟨List.idxOf (0 : Fin 2) (cellDims N E wf).startIndexMap,
        List.idxOf_lt_length_iff.2 (List.mem_cons_self ..)⟩ = ix2 e (0 : Fin 2) := by
      funext b; refine Fin.ext ?_
      match b with
      | ⟨0, _⟩ => rfl
      | ⟨1, _⟩ => rfl
    rw [hsi]
    rfl
  | ⟨1, _⟩ =>
    have hlt : (cellDims N E wf).start (ix1 e) idx 1 + (cellDims N E wf).batchCoord (ix1 e) 1
      + (cellDims N E wf).offCoord (ix1 e) 1 < 1 := (cellDims N E wf).lt (ix1 e) idx (1 : Fin 2)
    show (cellDims N E wf).start (ix1 e) idx 1 + (cellDims N E wf).batchCoord (ix1 e) 1
      + (cellDims N E wf).offCoord (ix1 e) 1 = 0
    omega

/-- The row a start word names, as an index of the table's row axis. -/
def clampFin (N : Nat) (hN : 0 < N) {w : Nat} (v : BitVec w) : Fin N := ⟨clampRow N v, clampRow_lt hN v⟩

/-- The gather of cells through `clampFin`. -/
theorem gather_cell_fin {N E w : Nat} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (cellDims N E wf) x idx (ix1 e) = x (ix2 (clampFin N hN (idx (ix2 e (0 : Fin 2)))) (0 : Fin 1)) :=
  gather_cell_apply hN wf x idx e

/-- The gather of rows through `clampFin`. -/
theorem gather_rows_fin {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k) = x (ix2 (clampFin N hN (idx (ix2 e (0 : Fin 1)))) k) :=
  gather_rows_apply hN wf x idx e k

end Cell

end Idealize.ShloMosaic.ValueIdx

end
-- ==== Proof.NodeSum.lean ====
/-
  The kernel program's per-node scalar of the first layer, read at a node.

  It is zero plus the sum, over the edges whose destination word is n, of the source node's feature times the edge
  weight, the source node being the wrapped source word clamped into the table.
-/
import proofs.«101361_j20091857011301_2_alg».proof.Proof.KernelValue
import proofs.«101361_j20091857011301_2_alg».proof.Proof.LibScatterSum
import proofs.«101361_j20091857011301_2_alg».proof.Proof.LibGatherCell
import Idealize.ShloMosaic.Lib.Pipeline.Value
import Idealize.ShloMosaic.Lib.ValueIdx

set_option maxRecDepth 16384

noncomputable section

namespace Cert.KernelIdeal.Terms

open Idealize.ShloMosaic Idealize.ShloMosaic.ValueIdx Idealize.ShloMosaic.TcCoe
open Cert.KernelIdeal Cert.KernelIdeal.Gen

/-- The start pairs' first component is the wrapped source word. -/
theorem pairs_row (a1 : IVec S2x2600000 32) (e : Fin 2600000) :
    pairs a1 (ix2 e (0 : Fin 2)) = col (wrapped (srcWords a1)) (ix2 e (0 : Fin 1)) := by
  unfold pairs
  exact concatenate_pair_apply_left (t := S2600000x2) (s₁ := S2600000x1) (s₂ := S2600000x1) (1 : Fin 2) _ _
    concatenates_S2600000x1_S2600000x1_S2600000x2_d1 (ix2 e (0 : Fin 2)) rfl
    (ix2 e (0 : Fin 1)) (fun b => by
      match b with
      | ⟨0, _⟩ => rfl
      | ⟨1, _⟩ => rfl)

/-- The column of node scalars at node n is the vector at n. -/
theorem nodeScalar_apply (a0 : FVec Ideal S1400000x1 .f32) (a1 : IVec S2x2600000 32) (a2 : FVec Ideal S2600000 .f32)
    (n : Fin 1400000) : nodeScalar a0 a1 a2 (ix2 n (0 : Fin 1)) = nodeSum a0 a1 a2 (ix1 n) := by
  unfold nodeScalar
  generalize nodeSum a0 a1 a2 = y
  exact broadcastInDim_apply _ bcast_S1400000_S1400000x1_0 y (ix2 n (0 : Fin 1)) (ix1 n) (fun a => by
    match a with
    | ⟨0, _⟩ =>
      show n.val = if (1400000 : ℕ) = 1 then 0 else n.val
      rw [if_neg (by omega)])

/-- THE PER-NODE SCALAR as a sum over the edges. -/
theorem nodeSum_apply (a0 : FVec Ideal S1400000x1 .f32) (a1 : IVec S2x2600000 32) (a2 : FVec Ideal S2600000 .f32)
    (n : Fin 1400000) :
    nodeSum a0 a1 a2 (ix1 n) = Ideal.ofBits .f32 0x00000000#32
      + ∑ e : Fin 2600000, if (col (dstWords a1) (ix2 e (0 : Fin 1))).toInt = (n.val : Int)
          then a0 (ix2 (clampFin 1400000 (by decide) (col (wrapped (srcWords a1)) (ix2 e (0 : Fin 1)))) (0 : Fin 1)) * a2 (ix1 e)
          else 0 := by
  unfold nodeSum
  rw [Cert.ScatterSum.scatterAdd_ideal]
  refine (Cert.ScatterSum.scatterAdd_vec_apply (N := 1400000) (E := 2600000) scatter_S1400000_S2600000x1_S2600000_n_0_0_1.wf
    (col (dstWords a1)) _ _ n).trans ?_
  refine congrArg₂ (· + ·) rfl (Finset.sum_congr rfl fun e _ => ?_)
  refine if_congr Iff.rfl ?_ rfl
  show Host.gather gather_S1400000x1_S2600000x2_S2600000_n_01_n_n_01_1_11 a0 (pairs a1) (ix1 e) * a2 (ix1 e) = _
  rw [← pairs_row]
  exact congrArg (· * a2 (ix1 e))
    (gather_cell_fin (N := 1400000) (E := 2600000) (by decide) gather_S1400000x1_S2600000x2_S2600000_n_01_n_n_01_1_11.wf a0 (pairs a1) e)

end Cert.KernelIdeal.Terms

end
-- ==== Proof.ReferenceHidden.lean ====
/-
  The reference's first graph convolution, read at an entry.

  The reference multiplies the features by the first layer's weights (one input channel: a one-term product per
  entry), gathers each edge's source row, scales it by the edge weight and scatter-adds it into the destination row.
  So its aggregate at (n, c) is zero plus the sum, over the edges whose destination word is n, of
  (x (source node) * W1 c) * (edge weight), the source node being the wrapped source word clamped into the table.
-/
import proofs.«101361_j20091857011301_2_alg».proof.Proof.Gen.ReferenceIdeal.Read
import proofs.«101361_j20091857011301_2_alg».proof.Proof.LibScatterSum
import proofs.«101361_j20091857011301_2_alg».proof.Proof.LibGatherCell
import proofs.«101361_j20091857011301_2_alg».proof.Proof.LibPlainDot

set_option maxRecDepth 16384

noncomputable section

namespace Cert.ReferenceIdeal.HiddenRead

open Idealize.ShloMosaic Idealize.ShloMosaic.ValueIdx Idealize.ShloMosaic.TcCoe
open Cert.ReferenceIdeal Cert.ReferenceIdeal.Read

/-- The features times the first layer's weights at (r, c): one product. -/
theorem lin_apply (x0 : (⟨S1400000x1, .f32⟩ : BufTy).Contents (Elt Ideal)) (x3 : (⟨S1x64, .f32⟩ : BufTy).Contents (Elt Ideal))
    (r : Fin 1400000) (c : Fin 64) :
    val_main_v4 (F := Ideal) x0 x3 (ix2 r c) = x0 (ix2 r (0 : Fin 1)) * x3 (ix2 (0 : Fin 1) c) := by
  rw [val_main_v4_apply, Fin.sum_univ_one]
  have hl : lidx_main_v4 (ix2 r c) (0 : Fin 1) = ix2 r (0 : Fin 1) := Cert.LibPlainDot.ext2 _ _ rfl rfl
  have hr : ridx_main_v4 (ix2 r c) (0 : Fin 1) = ix2 (0 : Fin 1) c := Cert.LibPlainDot.ext2 _ _ rfl rfl
  rw [hl, hr]

set_option maxHeartbeats 2000000 in
/-- THE FIRST LAYER'S AGGREGATE at (n, c) as a sum over the edges. -/
theorem agg_apply (x0 : (⟨S1400000x1, .f32⟩ : BufTy).Contents (Elt Ideal)) (x1 : (⟨S2x2600000, .i32⟩ : BufTy).Contents (Elt Ideal)) (x2 : (⟨S2600000, .f32⟩ : BufTy).Contents (Elt Ideal)) (x3 : (⟨S1x64, .f32⟩ : BufTy).Contents (Elt Ideal)) (n : Fin 1400000) (c : Fin 64) :
    val_main_v17 (F := Ideal) x0 x1 x2 x3 (ix2 n c) = Ideal.ofBits .f32 0x00000000#32
      + ∑ e : Fin 2600000, if (val_main_v16 (F := Ideal) x1 (ix2 e (0 : Fin 1))).toInt = (n.val : Int)
          then (x0 (ix2 (clampFin 1400000 (by decide) (val_main_v10 (F := Ideal) x1 (ix2 e (0 : Fin 1)))) (0 : Fin 1))
                * x3 (ix2 (0 : Fin 1) c)) * x2 (ix1 e)
          else 0 := by
  unfold val_main_v17
  rw [Cert.ScatterSum.scatterAdd_ideal]
  refine (Cert.ScatterSum.scatterAdd_mat_apply (N := 1400000) (C := 64) (E := 2600000) scatter_S1400000x64_S2600000x1_S2600000x64_1_0_0_1.wf
    (val_main_v16 (F := Ideal) x1) _ _ n c).trans ?_
  refine congrArg₂ (· + ·) ?_ (Finset.sum_congr rfl fun e _ => ?_)
  · rw [val_main_v15_apply, val_main_cst_apply]; rfl
  · refine if_congr Iff.rfl ?_ rfl
    rw [val_main_v14_apply, val_main_v13_apply, val_main_v12_apply]
    have hi : idx_main_v12 (idx_main_v13 (ix2 e c)) = ix1 e := by
      funext a; match a with | ⟨0, _⟩ => rfl
    rw [hi]
    show val_main_v11 (F := Ideal) x0 x1 x3 (ix2 e c) * x2 (ix1 e) = _
    refine congrArg (· * x2 (ix1 e)) ?_
    unfold val_main_v11
    refine (gather_rows_fin (N := 1400000) (C := 64) (E := 2600000) (by decide) gather_S1400000x64_S2600000x1_S2600000x64_1_0_n_n_0_1_164.wf
      (val_main_v4 (F := Ideal) x0 x3) (val_main_v10 (F := Ideal) x1) e c).trans ?_
    exact lin_apply x0 x3 _ c

end Cert.ReferenceIdeal.HiddenRead

end
-- ==== Proof.Consts.lean ====
/-
  The two float words the programs spell besides zero, as the extended reals they denote: 32 (the number of
  channels the pooling averages over) and 1 (the logistic function's numerator and the addend of its denominator).
-/
import Idealize.ShloMosaic.PureOps.Ideal

noncomputable section

namespace Cert.Consts

open Idealize.ShloMosaic

theorem ofBits_32 : Ideal.ofBits .f32 0x42000000#32 = ((32 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

end Cert.Consts

end
-- ==== Proof.ReferenceHead.lean ====
/-
  The reference's pooling head, read at a graph.

  After its second graph convolution the reference has the aggregated features agg (one row of 32 channels per node).
  Per graph g it adds the bias, rectifies, averages each of the graph's 14 nodes over the 32 channels, takes the
  product with the 14 weights, adds the head's bias and applies 1 / (1 + exp(-x)), which is the logistic function:
      out g = logistic ((sum over j < 14 of ((0 + sum over k < 32 of max(agg (14 g + j, k) + b2 k, 0)) / 32) * Wl j) + bl).
-/
import proofs.«101361_j20091857011301_2_alg».proof.Proof.Gen.ReferenceIdeal.Read
import proofs.«101361_j20091857011301_2_alg».proof.Proof.LibPlainDot
import proofs.«101361_j20091857011301_2_alg».proof.Proof.Consts

set_option maxRecDepth 16384

noncomputable section

namespace Cert.ReferenceIdeal.HeadRead

open Idealize.ShloMosaic Idealize.ShloMosaic.ValueIdx Idealize.ShloMosaic.TcCoe
open Cert.ReferenceIdeal Cert.ReferenceIdeal.Read

set_option maxHeartbeats 2000000 in
/-- The reference's result at graph g, over its aggregated second-layer features. -/
theorem head_at (x0 : (⟨S1400000x1, .f32⟩ : BufTy).Contents (Elt Ideal)) (x1 : (⟨S2x2600000, .i32⟩ : BufTy).Contents (Elt Ideal)) (x2 : (⟨S2600000, .f32⟩ : BufTy).Contents (Elt Ideal)) (x3 : (⟨S1x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S14x1, .f32⟩ : BufTy).Contents (Elt Ideal)) (x8 : (⟨S1, .f32⟩ : BufTy).Contents (Elt Ideal)) (g : Fin 100000) :
    val_main_v53 (F := Ideal) x0 x1 x2 x3 x4 x5 x6 x7 x8 (ix2 g (0 : Fin 1))
      = Ideal.logistic ((∑ j : Fin 14, Ideal.div (Ideal.ofBits .f32 0x00000000#32 + ∑ k : Fin 32,
            max (val_main_v35 (F := Ideal) x0 x1 x2 x3 x4 x5 (ix2 (⟨14 * g.val + j.val, by omega⟩ : Fin 1400000) k) + x6 (ix1 k))
              (Ideal.ofBits .f32 0x00000000#32))
          (Ideal.ofBits .f32 0x42000000#32) * x7 (ix2 j (0 : Fin 1))) + x8 (ix1 (0 : Fin 1))) := by
  rw [val_main_v53_apply, val_main_v52_apply, val_main_cst_7_apply, val_main_v51_apply, val_main_v50_apply,
    val_main_cst_6_apply, val_main_v49_apply, val_main_v48_apply, val_main_v47_apply, val_main_v46_apply,
    val_main_v45_apply, val_main_v44_apply]
  simp only [Ideal.hostDivf_def, Ideal.addf_def, Ideal.hostUnary_exp_def, Ideal.hostNegf_def, Ideal.negf_def,
    Ideal.ofBits_def]
  rw [Cert.Consts.ofBits_one]
  unfold Ideal.logistic
  refine congrArg (fun z => Ideal.div 1 (1 + Ideal.exp (-z))) ?_
  refine congrArg₂ (· + ·) (Finset.sum_congr rfl fun j _ => ?_) ?_
  · rw [val_main_v43_apply, val_main_v42_apply, val_main_cst_5_apply, val_main_v41_apply, val_main_cst_4_apply]
    simp only [Ideal.hostDivf_def, Ideal.ofBits_def]
    have hr : ridx_main_v44 (ix2 g (0 : Fin 1)) j = ix2 j (0 : Fin 1) :=
      Cert.LibPlainDot.ext2 _ _ rfl rfl
    rw [hr]
    refine congrArg (fun z => Ideal.div (Ideal.ofBits .f32 0x00000000#32 + z) (Ideal.ofBits .f32 0x42000000#32)
      * x7 (ix2 j (0 : Fin 1))) (Finset.sum_congr rfl fun k _ => ?_)
    rw [val_main_v40_apply, val_main_v39_apply, val_main_v38_apply, val_main_call1_v0_apply, val_main_call1_cst_apply,
      val_main_v37_apply, val_main_v36_apply]
    simp only [Ideal.maximumf_def, Ideal.addf_def, Ideal.ofBits_def]
    have hi : idx_main_v40 (idx_main_v41 (lidx_main_v44 (ix2 g (0 : Fin 1)) j) k)
        = ix2 (⟨14 * g.val + j.val, by omega⟩ : Fin 1400000) k := by
      refine Cert.LibPlainDot.ext2 _ _ ?_ ?_
      · show ((g.val * 14 + j.val) * 32 + k.val) / 32 = 14 * g.val + j.val
        have := k.isLt; omega
      · show ((g.val * 14 + j.val) * 32 + k.val) % 32 = k.val
        have := k.isLt; omega
    rw [hi]
    have hb : idx_main_v36 (idx_main_v37 (ix2 (⟨14 * g.val + j.val, by omega⟩ : Fin 1400000) k)) = ix1 k := by
      funext a; match a with | ⟨0, _⟩ => rfl
    rw [hb]
  · refine congrArg x8 ?_
    funext a; match a with | ⟨0, _⟩ => rfl

end Cert.ReferenceIdeal.HeadRead

end
-- ==== Proof.LibCoeLift.lean ====
/-
  Extended-real operations on real arguments stay real: finite sums, the quotient by a nonzero real, and a running
  maximum started at -∞ over a nonempty range. With these, a chain of sums, products, exponentials, quotients and
  maxima of real inputs is read as one real number.
-/
import Idealize.ShloMosaic.PureOps.Ideal
import Idealize.ShloMosaic.PureOps.Ideal.Laws

noncomputable section

namespace Cert.Proof.CoeLift

open Idealize.ShloMosaic

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The extended quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-- The word of the negative infinity denotes the bottom of the extended reals. -/
theorem ofBits_neg_inf : Ideal.ofBits .f32 0xFF800000#32 = (⊥ : EReal) := by
  simp [Ideal.ofBits, Ideal.ieee]

/-- A running maximum from -∞ over a nonempty finite set of reals is a real. -/
theorem fold_max_coe_of_nonempty {ι : Type} (s : Finset ι) (hs : s.Nonempty) (f : ι → ℝ) :
    ∃ c : ℝ, s.fold max (⊥ : EReal) (fun i => ((f i : ℝ) : EReal)) = (c : EReal) := by
  induction hs using Finset.Nonempty.cons_induction with
  | singleton a => exact ⟨f a, by rw [Finset.fold_singleton, max_bot_right]⟩
  | cons a s ha hs ih =>
    obtain ⟨c, hc⟩ := ih
    exact ⟨max (f a) c, by rw [Finset.fold_cons, hc]; exact (EReal.coe_strictMono.monotone.map_max).symm⟩

/-- The same over a whole nonempty range. -/
theorem fold_max_coe {n : ℕ} (hn : 0 < n) (f : Fin n → ℝ) :
    ∃ c : ℝ, (Finset.univ : Finset (Fin n)).fold max (⊥ : EReal) (fun i => ((f i : ℝ) : EReal)) = (c : EReal) :=
  fold_max_coe_of_nonempty _ ⟨⟨0, hn⟩, Finset.mem_univ _⟩ f

end Cert.Proof.CoeLift

end
-- ==== Proof.FirstLayerLaw.lean ====
/-
  The law that joins the two spellings of the first graph convolution.

  With one input channel the message of edge e into channel c is x_e * W_c * w_e (x_e the source node's feature, w_e
  the edge weight, W_c the channel's weight). The reference sums, over the edges landing on a node, the products
  (x_e * W_c) * w_e; the kernel sums the scalars x_e * w_e first and multiplies the total by W_c afterwards. A product
  distributes over a finite sum of REAL numbers, which is what finite inputs give; at infinities it need not.
-/
import proofs.«101361_j20091857011301_2_alg».proof.Proof.LibCoeLift

noncomputable section

namespace Cert.FirstLayer

open Idealize.ShloMosaic Cert.Proof.CoeLift

/-- Sum the scalar messages, then scale by the channel weight = sum the scaled messages: for real features, edge
    weights and channel weight, the sum running over the edges selected by any decidable condition `Q`. -/
theorem scale_after_sum {E : Nat} (Q : Fin E → Prop) [DecidablePred Q] (a b : Fin E → EReal) (w z : EReal)
    (ha : ∀ e, ∃ r : ℝ, a e = (r : EReal)) (hb : ∀ e, ∃ r : ℝ, b e = (r : EReal)) (hw : ∃ r : ℝ, w = (r : EReal))
    (hz : z = 0) :
    (z + ∑ e : Fin E, if Q e then a e * b e else 0) * w = z + ∑ e : Fin E, if Q e then (a e * w) * b e else 0 := by
  choose ar har using ha
  choose br hbr using hb
  obtain ⟨wr, rfl⟩ := hw
  subst hz
  have h1 : ∀ e, (if Q e then a e * b e else 0) = (((if Q e then ar e * br e else 0 : ℝ)) : EReal) := by
    intro e; rw [har e, hbr e]; split_ifs
    · exact (EReal.coe_mul _ _).symm
    · exact EReal.coe_zero.symm
  have h2 : ∀ e, (if Q e then (a e * (wr : EReal)) * b e else 0)
      = (((if Q e then (ar e * wr) * br e else 0 : ℝ)) : EReal) := by
    intro e; rw [har e, hbr e]; split_ifs
    · rw [← EReal.coe_mul, ← EReal.coe_mul]
    · exact EReal.coe_zero.symm
  simp only [h1, h2]
  rw [coe_sum, coe_sum, zero_add, zero_add, ← EReal.coe_mul, Finset.sum_mul]
  refine congrArg (fun r : ℝ => (r : EReal)) (Finset.sum_congr rfl fun e _ => ?_)
  split_ifs
  · ring
  · exact zero_mul _

end Cert.FirstLayer

end
-- ==== Proof.PoolLaw.lean ====
/-
  The law that joins the two spellings of the pooling head.

  Per graph, h is a 14 x 32 table of nonnegative numbers (a rectifier's outputs: node j, channel k) and W a column of
  14 weights. The reference averages each row over its 32 channels and then takes the product with the weights:
  sum over j of ((sum over k of h j k) / 32) * W j. The kernel scales the weights first and takes one long product
  over the flattened table: sum over f < 448 of h (f / 32) (f % 32) * (W (f / 32) / 32). Division by 32 is the product
  with 1/32 on every extended real, products are associative and commutative, and a product distributes over a sum
  of NONNEGATIVE extended reals; so the two agree with no finiteness assumption.
-/
import Idealize.ShloMosaic.PureOps.Ideal
import Idealize.ShloMosaic.PureOps.Ideal.Laws
import proofs.«101361_j20091857011301_2_alg».proof.Proof.Consts

noncomputable section

namespace Cert.Pool

open Idealize.ShloMosaic

/-- A product distributes over a finite sum of nonnegative extended reals. -/
theorem sum_mul_of_nonneg {ι : Type} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- One node's term: the channel mean times the weight is the channels' sum of products with the scaled weight. -/
theorem mean_mul (h : Fin 32 → EReal) (hn : ∀ k, 0 ≤ h k) (w z : EReal) (hz : z = 0) :
    Ideal.div (z + ∑ k : Fin 32, h k) (Ideal.ofBits .f32 0x42000000#32) * w
      = ∑ k : Fin 32, h k * Ideal.div w (Ideal.ofBits .f32 0x42000000#32) := by
  subst hz
  rw [Cert.Consts.ofBits_32, Ideal.div_coe (by norm_num : (32 : ℝ) ≠ 0), Ideal.div_coe (by norm_num : (32 : ℝ) ≠ 0),
    zero_add, mul_assoc, mul_comm (((1 / 32 : ℝ)) : EReal) w]
  exact sum_mul_of_nonneg _ _ (fun k _ => hn k) _

/-- The flattened table's long sum is the double sum over nodes and channels. -/
theorem sum_flat {M : Type} [AddCommMonoid M] (g : Fin 448 → M) :
    ∑ f : Fin 448, g f = ∑ j : Fin 14, ∑ k : Fin 32, g ⟨32 * j.val + k.val, by omega⟩ := by
  rw [← Equiv.sum_comp (finProdFinEquiv (m := 14) (n := 32)) g, Fintype.sum_prod_type]
  refine Finset.sum_congr rfl fun j _ => Finset.sum_congr rfl fun k _ => congrArg g (Fin.ext ?_)
  show k.val + 32 * j.val = 32 * j.val + k.val
  omega

/-- THE POOLING LAW. -/
theorem pool (h : Fin 14 → Fin 32 → EReal) (hn : ∀ j k, 0 ≤ h j k) (w : Fin 14 → EReal) (z : EReal) (hz : z = 0) :
    ∑ j : Fin 14, Ideal.div (z + ∑ k : Fin 32, h j k) (Ideal.ofBits .f32 0x42000000#32) * w j
      = ∑ j : Fin 14, ∑ k : Fin 32, h j k * Ideal.div (w j) (Ideal.ofBits .f32 0x42000000#32) :=
  Finset.sum_congr rfl fun j _ => mean_mul (h j) (hn j) (w j) z hz

end Cert.Pool

end
-- ==== Proof.Bridge.lean ====
/-
  The kernel program's result term and the reference's result term are one function of the arguments.

  Three facts join them. (1) The first layer: the reference's aggregate at (n, c) is the kernel's per-node scalar at n
  times the channel weight W1 c — a product moved out of a sum of real numbers, which is where finite inputs are used.
  So both programs project the same hidden features. (2) The second layer's aggregation is the same operations of
  the projected features, the edge list and the edge weights on both sides. (3) The head: the kernel's one long
  product over the flattened 14 x 32 table with weights W j / 32 is the reference's product of the channel means with
  the weights W j, the table's entries being nonnegative (a rectifier's outputs); no finiteness is needed there.
-/
import proofs.«101361_j20091857011301_2_alg».proof.Proof.KernelReads
import proofs.«101361_j20091857011301_2_alg».proof.Proof.NodeSum
import proofs.«101361_j20091857011301_2_alg».proof.Proof.ReferenceHidden
import proofs.«101361_j20091857011301_2_alg».proof.Proof.ReferenceHead
import proofs.«101361_j20091857011301_2_alg».proof.Proof.FirstLayerLaw
import proofs.«101361_j20091857011301_2_alg».proof.Proof.PoolLaw

set_option maxRecDepth 16384

noncomputable section

namespace Cert.Bridge

open Idealize.ShloMosaic Idealize.ShloMosaic.ValueIdx Idealize.ShloMosaic.TcCoe
open Cert.ReferenceIdeal Cert.ReferenceIdeal.Read
open Cert.KernelIdeal.Terms

/-- The reference's destination column is the kernel's. -/
theorem dstCol_eq (x1 : (⟨S2x2600000, .i32⟩ : BufTy).Contents (Elt Ideal)) :
    val_main_v16 (F := Ideal) x1 = col (dstWords x1) := rfl

/-- The reference's wrapped source column is the kernel's. -/
theorem srcCol_eq (x1 : (⟨S2x2600000, .i32⟩ : BufTy).Contents (Elt Ideal)) :
    val_main_v10 (F := Ideal) x1 = col (wrapped (srcWords x1)) := rfl

/-- The reference's second aggregation is the kernel's `aggregate` of the reference's projected features. -/
theorem agg_eq (x0 : (⟨S1400000x1, .f32⟩ : BufTy).Contents (Elt Ideal)) (x1 : (⟨S2x2600000, .i32⟩ : BufTy).Contents (Elt Ideal)) (x2 : (⟨S2600000, .f32⟩ : BufTy).Contents (Elt Ideal)) (x3 : (⟨S1x64, .f32⟩ : BufTy).Contents (Elt Ideal)) (x4 : (⟨S64, .f32⟩ : BufTy).Contents (Elt Ideal)) (x5 : (⟨S64x32, .f32⟩ : BufTy).Contents (Elt Ideal)) :
    val_main_v35 (F := Ideal) x0 x1 x2 x3 x4 x5
      = aggregate (val_main_v22 (F := Ideal) x0 x1 x2 x3 x4 x5) (srcWords x1) (dstWords x1) x2 := rfl

set_option maxHeartbeats 2000000 in
/-- (1) For real features, edge weights and first-layer weights, the reference's projected hidden features are the
    kernel's. -/
theorem hidden_eq (x0 : (⟨S1400000x1, .f32⟩ : BufTy).Contents (Elt Ideal)) (x1 : (⟨S2x2600000, .i32⟩ : BufTy).Contents (Elt Ideal)) (x2 : (⟨S2600000, .f32⟩ : BufTy).Contents (Elt Ideal)) (x3 : (⟨S1x64, .f32⟩ : BufTy).Contents (Elt Ideal)) (x4 : (⟨S64, .f32⟩ : BufTy).Contents (Elt Ideal)) (x5 : (⟨S64x32, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) :
    val_main_v22 (F := Ideal) x0 x1 x2 x3 x4 x5
      = Cert.KernelIdeal.ProjectedHidden.proj (nodeScalar x0 x1 x2) x3
          (shapeCast Cert.KernelIdeal.S1x64 x4 Cert.KernelIdeal.Gen.shapeCasts_S64_S1x64) x5 := by
  funext i
  obtain ⟨n, k, rfl⟩ : ∃ (n : Fin 1400000) (k : Fin 32), i = ix2 n k := ⟨i 0, i 1, eq_ix2 i⟩
  rw [val_main_v22_apply]
  unfold Cert.KernelIdeal.ProjectedHidden.proj
  refine Finset.sum_congr rfl fun c _ => ?_
  have hl : lidx_main_v22 (ix2 n k) c = ix2 n c := Cert.LibPlainDot.ext2 _ _ rfl rfl
  have hr : ridx_main_v22 (ix2 n k) c = ix2 c k := Cert.LibPlainDot.ext2 _ _ rfl rfl
  rw [hl, hr, val_main_v21_apply, val_main_v20_apply, val_main_call0_v0_apply, val_main_call0_cst_apply,
    val_main_v19_apply, val_main_v18_apply]
  unfold Cert.KernelIdeal.ProjectedHidden.cell
  have hb : x4 (idx_main_v18 (idx_main_v19 (ix2 n c)))
      = shapeCast Cert.KernelIdeal.S1x64 x4 Cert.KernelIdeal.Gen.shapeCasts_S64_S1x64 (ix2 (0 : Fin 1) c) := by
    rw [biasRow_apply]
    exact congrArg x4 (funext fun a => match a with | ⟨0, _⟩ => rfl)
  have hs : val_main_v17 (F := Ideal) x0 x1 x2 x3 (ix2 n c)
      = nodeScalar x0 x1 x2 (ix2 n (0 : Fin 1)) * x3 (ix2 (0 : Fin 1) c) := by
    rw [Cert.ReferenceIdeal.HiddenRead.agg_apply, nodeScalar_apply, nodeSum_apply, dstCol_eq, srcCol_eq]
    exact (Cert.FirstLayer.scale_after_sum
      (fun e : Fin 2600000 => (col (dstWords x1) (ix2 e (0 : Fin 1))).toInt = (n.val : Int))
      (fun e => x0 (ix2 (clampFin 1400000 (by decide) (col (wrapped (srcWords x1)) (ix2 e (0 : Fin 1)))) (0 : Fin 1)))
      (fun e => x2 (ix1 e)) (x3 (ix2 (0 : Fin 1) c)) _ (fun e => h0 _) (fun e => h2 _) (h3 _)
      Ideal.ofBits_zero_f32).symm
  rw [hs, hb]
  rfl

set_option maxHeartbeats 4000000 in
/-- THE TWO RESULT TERMS ARE ONE FUNCTION of the arguments, the features, edge weights and first-layer weights real. -/
theorem result_eq_ref (x0 : (⟨S1400000x1, .f32⟩ : BufTy).Contents (Elt Ideal)) (x1 : (⟨S2x2600000, .i32⟩ : BufTy).Contents (Elt Ideal)) (x2 : (⟨S2600000, .f32⟩ : BufTy).Contents (Elt Ideal)) (x3 : (⟨S1x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S14x1, .f32⟩ : BufTy).Contents (Elt Ideal)) (x8 : (⟨S1, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) :
    result x0 x1 x2 x3 x4 x5 x6 x7 x8 = val_main_v53 (F := Ideal) x0 x1 x2 x3 x4 x5 x6 x7 x8 := by
  funext i
  obtain ⟨g, z, rfl⟩ : ∃ (g : Fin 100000) (z : Fin 1), i = ix2 g z := ⟨i 0, i 1, eq_ix2 i⟩
  have hz : z = 0 := Subsingleton.elim _ _
  subst hz
  rw [Cert.ReferenceIdeal.HeadRead.head_at, agg_eq, hidden_eq x0 x1 x2 x3 x4 x5 h0 h2 h3]
  unfold result Cert.KernelIdeal.PooledHead.head Cert.KernelIdeal.PooledHead.fin
  refine congrArg Ideal.logistic (congrArg₂ (· + ·) ?_ (headBias_apply x8))
  refine (Cert.Pool.sum_flat _).trans ?_
  refine Eq.trans ?_ (Cert.Pool.pool
    (fun (j : Fin 14) (k : Fin 32) => max (aggregate (Cert.KernelIdeal.ProjectedHidden.proj (nodeScalar x0 x1 x2) x3
        (shapeCast Cert.KernelIdeal.S1x64 x4 Cert.KernelIdeal.Gen.shapeCasts_S64_S1x64) x5) (srcWords x1) (dstWords x1) x2
        (ix2 (⟨14 * g.val + j.val, by omega⟩ : Fin 1400000) k) + x6 (ix1 k)) (Ideal.ofBits .f32 0x00000000#32))
    (fun j k => (le_of_eq Ideal.ofBits_zero_f32.symm).trans (le_max_right _ _))
    (fun j => x7 (ix2 j (0 : Fin 1))) _ Ideal.ofBits_zero_f32).symm
  refine Finset.sum_congr rfl fun j _ => Finset.sum_congr rfl fun k _ => ?_
  unfold Cert.KernelIdeal.PooledHead.cell
  rw [flat_apply, tiledBias_apply, scaledWeights_apply]

end Cert.Bridge

end
-- ==== Proof.lean ====
/-
  A two-layer graph convolution with a pooling head: a Pallas kernel program against its jnp reference, equal as
  extended reals on finite inputs.

  Both programs aggregate messages along the edges of a graph. With x the node features (one channel), w the edge
  weights, src / dst the edge list, N = 1400000 nodes in G = 100000 graphs of 14 nodes:
    layer 1   h1 (n, c) = max ((sum over edges e into n of x (src e) * W1 c * w e) + b1 c, 0)
    layer 2   h2 (n, k) = max ((sum over edges e into n of (sum over c of h1 (src e, c) * W2 (c, k)) * w e) + b2 k, 0)
    head      out g = logistic ((sum over the graph's nodes j of (mean over k of h2 (14 g + j, k)) * Wl j) + bl).
  The reference computes exactly this. The kernel program (a) sums the scalars x (src e) * w e per node first and
  multiplies by W1 c inside its first pallas_call, which also projects by W2 block by block; (b) runs layer 2's
  gather / scatter-add on the host as the reference does; (c) in its second pallas_call replaces the channel mean and
  the product with Wl by one product of the flattened 14 x 32 table with the weights Wl j / 32, and applies the
  logistic function as one operation where the reference spells 1 / (1 + exp(-x)).
  (a) is a product moved out of a finite sum: true for real numbers, so the precondition (finite inputs) is used for
  x, w and W1 (Proof/FirstLayerLaw.lean, Proof/FiniteInputs.lean). (c) is a product distributed over a sum of
  nonnegative extended reals, with division by 32 the product with 1/32: no finiteness needed (Proof/PoolLaw.lean).
  Each pallas_call's result array is read as one function of the arrays the call finds (Proof/ProjectedHidden.lean,
  Proof/PooledHead.lean), the host stretches are read operation by operation (Proof/KernelValue.lean), and the two
  result terms are joined in Proof/Bridge.lean. The kernel program has no rewritten operation, so `preserves` is
  trivial; the three frames are the generated ones.
-/
import proofs.«101361_j20091857011301_2_alg».proof.Defs
import proofs.«101361_j20091857011301_2_alg».proof.Proof.Gen.Kernel
import proofs.«101361_j20091857011301_2_alg».proof.Proof.Gen.Kernel.Skeleton
import proofs.«101361_j20091857011301_2_alg».proof.Proof.Gen.Kernel.Launch
import proofs.«101361_j20091857011301_2_alg».proof.Proof.Gen.Kernel.Points
import proofs.«101361_j20091857011301_2_alg».proof.Proof.Gen.Kernel.Frame
import proofs.«101361_j20091857011301_2_alg».proof.Proof.Gen.KernelIdeal
import proofs.«101361_j20091857011301_2_alg».proof.Proof.Gen.KernelIdeal.Skeleton
import proofs.«101361_j20091857011301_2_alg».proof.Proof.Gen.KernelIdeal.Launch
import proofs.«101361_j20091857011301_2_alg».proof.Proof.Gen.KernelIdeal.Points
import proofs.«101361_j20091857011301_2_alg».proof.Proof.Gen.KernelIdeal.Frame
import proofs.«101361_j20091857011301_2_alg».proof.Proof.Gen.ReferenceIdeal
import proofs.«101361_j20091857011301_2_alg».proof.Proof.Gen.ReferenceIdeal.Run
import proofs.«101361_j20091857011301_2_alg».proof.Proof.Gen.ReferenceIdeal.Read
import proofs.«101361_j20091857011301_2_alg».proof.Proof.Gen.Pre_finite_inputs
import proofs.«101361_j20091857011301_2_alg».proof.Proof.WholeRun
import proofs.«101361_j20091857011301_2_alg».proof.Proof.KernelValue
import proofs.«101361_j20091857011301_2_alg».proof.Proof.FiniteInputs
import proofs.«101361_j20091857011301_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The printed kernel program runs and leaves its arguments as launched (the generated frame). -/
theorem frame_k : Cert.frame_Kernel := fun m ρ _ => Cert.Kernel.Gen.frame m ρ

/-- The idealized kernel program runs and leaves its arguments as launched (the generated frame). -/
theorem frame_ki : Cert.frame_KernelIdeal := fun m ρ _ => Cert.KernelIdeal.Gen.frame m ρ

/-- The idealized reference runs and leaves its arguments as launched (its generated run, the result dropped). -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- From memories agreeing on the arguments, both idealized programs end with the result array at
    `Terms.result` of the arguments: the kernel program by its run and the reading of its two calls and host
    stretches, the reference by its generated run and the bridge (which uses that x, w and W1 are real). -/
theorem algebraic : Cert.algebraic_KernelIdeal_ReferenceIdeal := by
  intro m ρ m' ρ' hpre hagree
  refine ⟨fun c => Cert.KernelIdeal.Terms.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Terms.result_eq m ρ c), (h c).2⟩)
      (Cert.KernelIdeal.WholeRun.run_result m ρ)
  · refine (θ_run Cert.ReferenceIdeal.defs _ _).mono (fun r h c => ⟨(h c).1.trans ?_, (h c).2⟩)
      (Cert.ReferenceIdeal.Value.run (F := Ideal) m' ρ')
    obtain ⟨h0, h2, h3⟩ := Cert.FiniteInputs.reals _ _ _ _ _ _ _ _ _ (hpre c)
    obtain ⟨a0, a1, a2, a3, a4, a5, a6, a7, a8⟩ := hagree c
    rw [Cert.ReferenceIdeal.Read.val_main_v53_eq, a0, a1, a2, a3, a4, a5, a6, a7, a8]
    exact (Cert.Bridge.result_eq_ref _ _ _ _ _ _ _ _ _ h0 h2 h3).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
